-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel

variable [Facts]

def fn {F : FTy → Type} [FloatOps F] (main_arg0 : FVec F S32x1024 .f32) (main_arg1 : FVec F S32x1024 .f32) (main_arg2 : IVec S32x1024 1) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  main_v8
-- ==== Kernel.lean ====
abbrev S32x1024 : Shape := ⟨2, ![32, 1024]⟩
abbrev S32x1024x1 : Shape := ⟨3, ![32, 1024, 1]⟩
abbrev S32x1x1024 : Shape := ⟨3, ![32, 1, 1024]⟩
abbrev S32x1x128 : Shape := ⟨3, ![32, 1, 128]⟩
abbrev S1x512x1 : Shape := ⟨3, ![1, 512, 1]⟩
abbrev S1x1x1024 : Shape := ⟨3, ![1, 1, 1024]⟩
abbrev S1x1x128 : Shape := ⟨3, ![1, 1, 128]⟩
abbrev S512x1 : Shape := ⟨2, ![512, 1]⟩
abbrev S1x1024 : Shape := ⟨2, ![1, 1024]⟩
abbrev S1 : Shape := ⟨1, ![1]⟩
abbrev S1x1 : Shape := ⟨2, ![1, 1]⟩
abbrev S512x1024 : Shape := ⟨2, ![512, 1024]⟩
abbrev S512 : Shape := ⟨1, ![512]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 39
  | .vmem => 20
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .i1⟩
  | .hbm, ⟨3, _⟩ => ⟨S32x1024, .f32⟩
  | .hbm, ⟨4, _⟩ => ⟨S32x1024x1, .f32⟩
  | .hbm, ⟨5, _⟩ => ⟨S32x1024x1, .f32⟩
  | .hbm, ⟨6, _⟩ => ⟨S32x1024x1, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x128, .f32⟩
  | .hbm, ⟨11, _⟩ => ⟨S32x1x128, .f32⟩
  | .hbm, ⟨12, _⟩ => ⟨S32x1x128, .f32⟩
  | .hbm, ⟨13, _⟩ => ⟨S32x1x128, .f32⟩
  | .hbm, ⟨14, _⟩ => ⟨S32x1x1, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S32x1x1, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S32x1x1, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S32x1x1, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x512x1, .f32⟩
  | .local _ .vmem, ⟨1, _⟩ => ⟨S1x512x1, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S32x1024_S32x1024x1 : S32x1024.ShapeCasts S32x1024x1
  shapeCasts_S32x1024_S32x1x1024 : S32x1024.ShapeCasts S32x1x1024
  inb_S1x1x128_S1x1x128_0_0_0 : ∀ a, (![0, 0, 0] : Fin 3 → Nat) a + S1x1x128.size a ≤ S1x1x128.size a
  h_S1x1x128 : 0 < S1x1x128.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S512x1_S1 : S512x1.Reduces [0] S1
  shapeCasts_S1_S1x1 : S1.ShapeCasts S1x1
  broadcasts_S1x1024_S512x1024 : S1x1024.Broadcasts S512x1024
  broadcasts_S512x1_S512x1024 : S512x1.Broadcasts S512x1024
  natLt_1_32 : 1 < 32
  reduces_S512x1024_S512 : S512x1024.Reduces [1] S512
  shapeCasts_S512_S512x1 : S512.ShapeCasts S512x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S32x1024x1.size a
  hwx0_0 : ∀ i : grid0.Coords, EltTy.bits .f32 = 32 ∨ (Rect.block (s := S32x1024x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x1024x1.size a
  hwx0_1 : ∀ i : grid0.Coords, EltTy.bits .f32 = 32 ∨ (Rect.block (s := S32x1024x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x1024x1.size a
  hwx0_2 : ∀ i : grid0.Coords, EltTy.bits .f32 = 32 ∨ (Rect.block (s := S32x1024x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S32x1x1024.size a
  hwx0_4 : ∀ i : grid0.Coords, EltTy.bits .f32 = 32 ∨ (Rect.block (s := S32x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S32x1x1024.size a
  hwx0_5 : ∀ i : grid0.Coords, EltTy.bits .f32 = 32 ∨ (Rect.block (s := S32x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S32x1x128.size a
  hwx0_6 : ∀ i : grid0.Coords, EltTy.bits .f32 = 32 ∨ (Rect.block (s := S32x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S32x1x128.size a
  hwx0_7 : ∀ i : grid0.Coords, EltTy.bits .f32 = 32 ∨ (Rect.block (s := S32x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S32x1x128.size a
  hwx0_8 : ∀ i : grid0.Coords, EltTy.bits .f32 = 32 ∨ (Rect.block (s := S32x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S32x1x128.size a
  hwx0_9 : ∀ i : grid0.Coords, EltTy.bits .f32 = 32 ∨ (Rect.block (s := S32x1x128) S1x1x128.size (cc0_transform_9 i) (hinb0_9 i)).WholeWords (EltTy.packing .f32)

variable [Facts₀]

abbrev win0_0 : Pipeline.Window sig grid0 :=
  Pipeline.Window.ofSpec (Memref.whole main_v1) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_3) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024 : Shape := ⟨2, ![32, 1024]⟩
abbrev S_ : Shape := ⟨0, ![]⟩
abbrev S32x1x1024 : Shape := ⟨3, ![32, 1, 1024]⟩
abbrev S32x1024x1 : Shape := ⟨3, ![32, 1024, 1]⟩
abbrev S32x1024x1024 : Shape := ⟨3, ![32, 1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .i1⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .i1⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S_, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x1x1024, .f32⟩
  | .hbm, ⟨29, _⟩ => ⟨S32x1024x1, .f32⟩
  | .hbm, ⟨30, _⟩ => ⟨S32x1024x1024, .f32⟩
  | .hbm, ⟨31, _⟩ => ⟨S32x1024x1024, .f32⟩
  | .hbm, ⟨32, _⟩ => ⟨S32x1024x1024, .f32⟩
  | .hbm, ⟨33, _⟩ => ⟨S32x1x1024, .f32⟩
  | .hbm, ⟨34, _⟩ => ⟨S32x1024x1, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S32x1x1024, .i1⟩
  | .hbm, ⟨39, _⟩ => ⟨S32x1024x1, .i1⟩
  | .hbm, ⟨40, _⟩ => ⟨S32x1024x1024, .i1⟩
  | .hbm, ⟨41, _⟩ => ⟨S32x1024x1024, .i1⟩
  | .hbm, ⟨42, _⟩ => ⟨S32x1024x1024, .i1⟩
  | .hbm, ⟨43, _⟩ => ⟨S_, .f32⟩
  | .hbm, ⟨44, _⟩ => ⟨S32x1024x1024, .f32⟩
  | .hbm, ⟨45, _⟩ => ⟨S32x1024x1024, .i1⟩
  | .hbm, ⟨46, _⟩ => ⟨S32x1024x1024, .i1⟩
  | .hbm, ⟨47, _⟩ => ⟨S32x1024x1024, .f32⟩
  | .hbm, ⟨48, _⟩ => ⟨S_, .f32⟩
  | .hbm, ⟨49, _⟩ => ⟨S32x1024x1024, .f32⟩
  | .hbm, ⟨50, _⟩ => ⟨S32x1024x1024, .f32⟩
  | .hbm, ⟨51, _⟩ => ⟨S_, .f32⟩
  | .hbm, ⟨52, _⟩ => ⟨S32x1024x1024, .f32⟩
  | .hbm, ⟨53, _⟩ => ⟨S32x1024x1024, .f32⟩
  | .hbm, ⟨54, _⟩ => ⟨S32x1024x1024, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_cst : Ref sig .tc := ⟨.hbm, 48, rfl⟩
abbrev main_call1_v0 : Ref sig .tc := ⟨.hbm, 49, rfl⟩
abbrev main_v37 : Ref sig .tc := ⟨.hbm, 50, rfl⟩
abbrev main_cst_7 : Ref sig .tc := ⟨.hbm, 51, rfl⟩
abbrev main_call2_v0 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S32x1024_S32x1x1024_0_2 : S32x1024.BroadcastsInDim S32x1x1024 (![0, 2] : Fin 2 → Fin S32x1x1024.rank)
  bcast_S32x1024_S32x1024x1_0_1 : S32x1024.BroadcastsInDim S32x1024x1 (![0, 1] : Fin 2 → Fin S32x1024x1.rank)
  bcast_S32x1x1024_S32x1024x1024_0_1_2 : S32x1x1024.BroadcastsInDim S32x1024x1024 (![0, 1, 2] : Fin 3 → Fin S32x1024x1024.rank)
  bcast_S32x1024x1_S32x1024x1024_0_1_2 : S32x1024x1.BroadcastsInDim S32x1024x1024 (![0, 1, 2] : Fin 3 → Fin S32x1024x1024.rank)
  bcast_S_S32x1024x1024 : S_.BroadcastsInDim S32x1024x1024 (![] : Fin 0 → Fin S32x1024x1024.rank)
  natLt_1_32 : 1 < 32
  reducesTo_S32x1024x1024_S_d0_1_2 : S32x1024x1024.ReducesTo [0, 1, 2] S_

variable [Facts₀]

class Facts : Prop extends Facts₀ where

variable [Facts]
-- ==== Proof.Pieces.lean ====
import proofs.«128812_j19121194402346_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! # What one grid step leaves in each accumulator block

The body keeps four accumulator blocks (one per output): the row tile's sum of the masked Huber terms, of the mask entries,
of the pairwise rank terms and of the valid-pair indicators. On the first row tile of a batch row it zeroes the block and then adds
the tile's sum to it; on the later tile it adds the tile's sum to what the block already holds. Here each of the
eight stored values (four outputs, two control cases) is named as the body's pure arithmetic of the step's input
blocks: a sum broadcast along the 128 lanes, added to zero or to the carried block. -/

theorem hz3 : (![0, 0, 0] : Fin 3 → Nat) = fun _ => 0 := funext fun a => by fin_cases a <;> rfl

/-- Later row tile, output 6: the carried block plus this tile's sum of the masked Huber terms. -/
theorem out_B_6 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : ¬cond0_0 i) (x0 x1 x2 : Vec F S1x512x1 .f32) (x3 x4 x5 : Vec F S1x1x1024 .f32) (xo6 xo7 xo8 xo9 : Vec F S1x1x128 .f32) :
    out0_B_6 c i a2 h2 a3 h3 a4 h4 a5 h5 a6 h6 a7 h7 a8 h8 a9 h9 a10 h10 a11 h11 hc x0 x1 x2 x3 x4 x5 xo6 xo7 xo8 xo9 = k0_pay18 (k0_pay13 x0 x1 x2) xo6 := by
  unfold out0_B_6
  rw [View.read_writes_eq_canon _ _ _ (cover0_B_6 c i a2 h2 a3 h3 a4 h4 a5 h5 a6 h6 a7 h7 a8 h8 a9 h9 a10 h10 a11 h11 hc x0 x1 x2 x3 x4 x5 xo6 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- First row tile, output 6: the zero block plus this tile's sum of the masked Huber terms (the zero block is stored first and read
    back by the accumulating load). -/
theorem out_A_6 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : cond0_0 i) (x0 x1 x2 : Vec F S1x512x1 .f32) (x3 x4 x5 : Vec F S1x1x1024 .f32) :
    out0_A_6 c i a2 h2 a3 h3 a4 h4 a5 h5 a6 h6 a7 h7 a8 h8 a9 h9 a10 h10 a11 h11 hc x0 x1 x2 x3 x4 x5 = k0_pay18 (k0_pay13 x0 x1 x2) k0_pay3 := by
  unfold out0_A_6
  rw [View.read_writes_eq_canon _ _ _ (cover0_A_6 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1x128) hz3]
  simp only [View.readCov_unit_zero (S := S1x1x128) _ hz3, View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- Later row tile, output 7: the carried block plus this tile's sum of the mask entries. -/
theorem out_B_7 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : ¬cond0_0 i) (x0 x1 x2 : Vec F S1x512x1 .f32) (x3 x4 x5 : Vec F S1x1x1024 .f32) (xo6 xo7 xo8 xo9 : Vec F S1x1x128 .f32) :
    out0_B_7 c i a2 h2 a3 h3 a4 h4 a5 h5 a6 h6 a7 h7 a8 h8 a9 h9 a10 h10 a11 h11 hc x0 x1 x2 x3 x4 x5 xo6 xo7 xo8 xo9 = k0_pay19 (k0_pay14 x2) xo7 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 xo6 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- First row tile, output 7: the zero block plus this tile's sum of the mask entries (the zero block is stored first and read
    back by the accumulating load). -/
theorem out_A_7 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : cond0_0 i) (x0 x1 x2 : Vec F S1x512x1 .f32) (x3 x4 x5 : Vec F S1x1x1024 .f32) :
    out0_A_7 c i a2 h2 a3 h3 a4 h4 a5 h5 a6 h6 a7 h7 a8 h8 a9 h9 a10 h10 a11 h11 hc x0 x1 x2 x3 x4 x5 = k0_pay19 (k0_pay14 x2) k0_pay4 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1x128) hz3]
  simp only [View.readCov_unit_zero (S := S1x1x128) _ hz3, View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- Later row tile, output 8: the carried block plus this tile's sum of the pairwise rank terms. -/
theorem out_B_8 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : ¬cond0_0 i) (x0 x1 x2 : Vec F S1x512x1 .f32) (x3 x4 x5 : Vec F S1x1x1024 .f32) (xo6 xo7 xo8 xo9 : Vec F S1x1x128 .f32) :
    out0_B_8 c i a2 h2 a3 h3 a4 h4 a5 h5 a6 h6 a7 h7 a8 h8 a9 h9 a10 h10 a11 h11 hc x0 x1 x2 x3 x4 x5 xo6 xo7 xo8 xo9 = k0_pay1 (k0_pay16 (k0_pay7 x0) (k0_pay8 x1) (k0_pay9 x2) (k0_pay10 x3) (k0_pay11 x4) (k0_pay12 x5)) xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 xo6 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- First row tile, output 8: the zero block plus this tile's sum of the pairwise rank terms (the zero block is stored first and read
    back by the accumulating load). -/
theorem out_A_8 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : cond0_0 i) (x0 x1 x2 : Vec F S1x512x1 .f32) (x3 x4 x5 : Vec F S1x1x1024 .f32) :
    out0_A_8 c i a2 h2 a3 h3 a4 h4 a5 h5 a6 h6 a7 h7 a8 h8 a9 h9 a10 h10 a11 h11 hc x0 x1 x2 x3 x4 x5 = k0_pay1 (k0_pay16 (k0_pay7 x0) (k0_pay8 x1) (k0_pay9 x2) (k0_pay10 x3) (k0_pay11 x4) (k0_pay12 x5)) k0_pay5 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1x128) hz3]
  simp only [View.readCov_unit_zero (S := S1x1x128) _ hz3, View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- Later row tile, output 9: the carried block plus this tile's sum of the valid-pair indicators. -/
theorem out_B_9 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : ¬cond0_0 i) (x0 x1 x2 : Vec F S1x512x1 .f32) (x3 x4 x5 : Vec F S1x1x1024 .f32) (xo6 xo7 xo8 xo9 : Vec F S1x1x128 .f32) :
    out0_B_9 c i a2 h2 a3 h3 a4 h4 a5 h5 a6 h6 a7 h7 a8 h8 a9 h9 a10 h10 a11 h11 hc x0 x1 x2 x3 x4 x5 xo6 xo7 xo8 xo9 = k0_pay2 (k0_pay17 (k0_pay8 x1) (k0_pay9 x2) (k0_pay11 x4) (k0_pay12 x5)) xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 xo6 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

/-- First row tile, output 9: the zero block plus this tile's sum of the valid-pair indicators (the zero block is stored first and read
    back by the accumulating load). -/
theorem out_A_9 (c : Dev nD) (i : grid0.Coords) (a2 : Memref sig .tc .vmem S1x512x1 .f32) (h2 : a2.IsWhole) (a3 : Memref sig .tc .vmem S1x512x1 .f32) (h3 : a3.IsWhole) (a4 : Memref sig .tc .vmem S1x512x1 .f32) (h4 : a4.IsWhole) (a5 : Memref sig .tc .vmem S1x1x1024 .f32) (h5 : a5.IsWhole) (a6 : Memref sig .tc .vmem S1x1x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (hc : cond0_0 i) (x0 x1 x2 : Vec F S1x512x1 .f32) (x3 x4 x5 : Vec F S1x1x1024 .f32) :
    out0_A_9 c i a2 h2 a3 h3 a4 h4 a5 h5 a6 h6 a7 h7 a8 h8 a9 h9 a10 h10 a11 h11 hc x0 x1 x2 x3 x4 x5 = k0_pay2 (k0_pay17 (k0_pay8 x1) (k0_pay9 x2) (k0_pay11 x4) (k0_pay12 x5)) k0_pay6 := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1x128) hz3]
  simp only [View.readCov_unit_zero (S := S1x1x128) _ hz3, View.readAt_eq_ld, h2.read_unread, h3.read_unread, h4.read_unread, h5.read_unread, h6.read_unread, h7.read_unread, h8.read_unread, h9.read_unread, h10.read_unread, h11.read_unread, View.ld_unit_zero (S := S1x1x128) hz3, View.ld_unit_zero (S := S1x512x1) hz3, View.ld_unit_zero (S := S1x1x1024) hz3]

end Cert.KernelIdeal.Pieces
end
-- ==== Proof.Spec.lean ====
import Idealize.ShloMosaic.PureOps.Ideal
import Idealize.ShloMosaic.PureOps.Ideal.Laws
import Idealize.ShloMosaic.Lib.ValueIdx

/-! # A masked Huber loss plus a pairwise ranking loss: the scalar terms

For a batch row with predictions `p`, targets `t` and a 0/1 mask `m`, the loss adds

* the masked Huber mean: the sum over entries of `huber (p - t) · m` divided by `max (sum of m) 1`, and
* half the pairwise ranking mean: over ordered pairs `(i, j)` of one row with both entries unmasked and
  `t j - t i > 0`, the sum of `max (p i - p j) 0` divided by `max (number of such pairs) 1`.

This file names the per-entry and per-pair terms both programs compute, as exact extended reals, and proves
that the two spellings of the pair term — a product with a 0/1 validity factor, or a selection on the
conjunction of the three conditions — agree, and that the validity factor is the conjunction's bit read as
an integer. -/

noncomputable section

namespace Cert.RankLoss

open Idealize.ShloMosaic

/-- The float zero, one and one half, as the words both programs spell. -/
abbrev z0 : Ideal .f32 := FloatOps.ofBits .f32 0x00000000#32
abbrev one : Ideal .f32 := FloatOps.ofBits .f32 0x3F800000#32
abbrev half : Ideal .f32 := FloatOps.ofBits .f32 0x3F000000#32

/-- The masked Huber term of one entry: with `e = p - t`, `(½·e)·e` where `|e| ≤ 1` and `1·(|e| - ½)` elsewhere,
    times the mask value. -/
def hubf (p t mf : Ideal .f32) : Ideal .f32 :=
  FloatOps.mulf
    (Scalar.select (FloatOps.cmpf .ole (FloatOps.absf (FloatOps.subf p t)) one)
      (FloatOps.mulf (FloatOps.mulf half (FloatOps.subf p t)) (FloatOps.subf p t))
      (FloatOps.mulf one (FloatOps.subf (FloatOps.absf (FloatOps.subf p t)) half)))
    mf

/-- Whether target `j` exceeds target `i`, as a bit. -/
def above (ti tj : Ideal .f32) : BitVec 1 := FloatOps.cmpf .ogt (FloatOps.subf tj ti) z0

/-- The validity factor of the pair `(i, j)` as a product of floats: both mask values and the comparison's bit. -/
def validK (ti tj mi mj : Ideal .f32) : Ideal .f32 :=
  FloatOps.mulf (FloatOps.mulf mi mj) (FloatOps.sitofp .f32 ((above ti tj).setWidth 32))

/-- The pair's ranking term as a product: the validity factor times `max (p i - p j) 0`. -/
def pairK (pi pj ti tj mi mj : Ideal .f32) : Ideal .f32 :=
  FloatOps.mulf (validK ti tj mi mj) (FloatOps.maximumf (FloatOps.subf pi pj) z0)

/-- The pair's validity as one bit: both mask bits and the comparison's. -/
def condR (ti tj : Ideal .f32) (bi bj : BitVec 1) : BitVec 1 := IntOp.andi (IntOp.andi bj bi) (above ti tj)

/-- The pair's ranking term as a selection: `max (-(p j - p i)) 0` where the pair is valid, zero elsewhere. -/
def pairR (pi pj : Ideal .f32) (c : BitVec 1) : Ideal .f32 :=
  Scalar.select c (FloatOps.maximumf (FloatOps.hostNegf (FloatOps.subf pj pi)) z0) z0

theorem z0_eq : z0 = (0 : EReal) := Ideal.ofBits_zero_f32

/-- The word of `1.0` denotes the real one. -/
theorem one_eq : one = (1 : EReal) := by
  show Ideal.ofBits .f32 0x3F800000#32 = 1
  simp [Ideal.ofBits, Ideal.ieee, -EReal.coe_mul]; norm_num

/-- The word `0x7F800000` denotes `+∞`, so an extended real whose absolute value compares below it is a real. -/
theorem real_of_abs_lt (x : EReal)
    (h : FloatOps.cmpf (F := Ideal) (φ := .f32) .olt (FloatOps.hostAbsf (F := Ideal) (φ := .f32) x) (FloatOps.ofBits .f32 0x7F800000#32) = 1#1) :
    ∃ a : ℝ, x = (a : EReal) := by
  have htop : Ideal.ofBits .f32 0x7F800000#32 = ⊤ := by simp [Ideal.ofBits, Ideal.ieee]
  have hlt : max x (-x) < ⊤ := by
    by_contra hn
    have h' : BitVec.ofBool (decide (max x (-x) < Ideal.ofBits .f32 0x7F800000#32)) = 1#1 := h
    rw [htop, decide_eq_false hn] at h'
    exact absurd h' (by decide)
  induction x using EReal.rec with
  | bot => simp at hlt
  | coe a => exact ⟨a, rfl⟩
  | top => simp at hlt

/-- A mask bit read unsigned is 0 or 1. -/
theorem uitofp_zero : (FloatOps.uitofp (F := Ideal) .f32 (0#1) : EReal) = 0 := by
  show (((0#1 : BitVec 1).toNat : ℝ) : EReal) = 0
  simp
theorem uitofp_one : (FloatOps.uitofp (F := Ideal) .f32 (1#1) : EReal) = 1 := by
  show (((1#1 : BitVec 1).toNat : ℝ) : EReal) = 1
  simp
theorem sitofp_widen_zero : (FloatOps.sitofp (F := Ideal) .f32 ((0#1 : BitVec 1).setWidth 32) : EReal) = 0 := by
  show ((((0#1 : BitVec 1).setWidth 32).toInt : ℝ) : EReal) = 0
  simp
theorem sitofp_widen_one : (FloatOps.sitofp (F := Ideal) .f32 ((1#1 : BitVec 1).setWidth 32) : EReal) = 1 := by
  show ((((1#1 : BitVec 1).setWidth 32).toInt : ℝ) : EReal) = 1
  have : ((1#1 : BitVec 1).setWidth 32).toInt = 1 := by decide
  rw [this]; simp

/-- The float validity factor of a pair is its validity bit, widened and read as a signed integer. -/
theorem validK_eq (ti tj : Ideal .f32) (bi bj : BitVec 1) :
    validK ti tj (FloatOps.uitofp .f32 bi) (FloatOps.uitofp .f32 bj)
      = FloatOps.sitofp (F := Ideal) .f32 ((condR ti tj bi bj).setWidth 32) := by
  unfold validK condR
  generalize above ti tj = c
  rcases BitVec.eq_zero_or_eq_one bi with rfl | rfl <;> rcases BitVec.eq_zero_or_eq_one bj with rfl | rfl <;>
    rcases BitVec.eq_zero_or_eq_one c with rfl | rfl <;>
    simp only [Ideal.mulf_def, uitofp_zero, uitofp_one, sitofp_widen_zero, sitofp_widen_one, mul_zero, zero_mul, mul_one,
      show IntOp.andi (IntOp.andi (0#1) (0#1)) (0#1) = 0#1 from by decide,
      show IntOp.andi (IntOp.andi (0#1) (0#1)) (1#1) = 0#1 from by decide,
      show IntOp.andi (IntOp.andi (0#1) (1#1)) (0#1) = 0#1 from by decide,
      show IntOp.andi (IntOp.andi (0#1) (1#1)) (1#1) = 0#1 from by decide,
      show IntOp.andi (IntOp.andi (1#1) (0#1)) (0#1) = 0#1 from by decide,
      show IntOp.andi (IntOp.andi (1#1) (0#1)) (1#1) = 0#1 from by decide,
      show IntOp.andi (IntOp.andi (1#1) (1#1)) (0#1) = 0#1 from by decide,
      show IntOp.andi (IntOp.andi (1#1) (1#1)) (1#1) = 1#1 from by decide]

/-- On finite predictions the two spellings of the pair's ranking term agree: a valid pair contributes
    `max (p i - p j) 0`, which is `max (-(p j - p i)) 0` on the reals, and an invalid pair contributes zero. -/
theorem pairK_eq (a b : ℝ) (ti tj : Ideal .f32) (bi bj : BitVec 1) :
    pairK (a : EReal) (b : EReal) ti tj (FloatOps.uitofp .f32 bi) (FloatOps.uitofp .f32 bj)
      = pairR (a : EReal) (b : EReal) (condR ti tj bi bj) := by
  unfold pairK
  rw [validK_eq]
  unfold pairR
  rcases BitVec.eq_zero_or_eq_one (condR ti tj bi bj) with h | h <;> rw [h]
  · rw [ValueIdx.select_zero, sitofp_widen_zero, Ideal.mulf_def, zero_mul, z0_eq]
  · rw [ValueIdx.select_one, sitofp_widen_one, Ideal.mulf_def, one_mul]
    simp only [Ideal.maximumf_def, Ideal.subf_def, Ideal.hostNegf_def, Ideal.negf_def]
    rw [← EReal.coe_sub, ← EReal.coe_sub, ← EReal.coe_neg, neg_sub]

end Cert.RankLoss

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.Payloads.lean ====
import proofs.«128812_j19121194402346_2_alg».proof.Proof.Gen.KernelIdeal.Skeleton
import proofs.«128812_j19121194402346_2_alg».proof.Proof.Spec
import proofs.«128812_j19121194402346_2_alg».proof.Proof.LibKeepdims
import proofs.«128812_j19121194402346_2_alg».proof.Proof.LibRowForms
import Idealize.ShloMosaic.Lib.ValueLayout
import Idealize.ShloMosaic.Lib.Pipeline.Value

/-! # The body's arithmetic, read entry by entry at the exact values

One grid step handles batch row `b` and a tile of 512 of its 1024 entries (the "column" blocks, shaped
`[1, 512, 1]`) against the whole row (the "row" blocks, shaped `[1, 1, 1024]`). It forms four scalars:

* the tile's sum over its entries `r` of the masked Huber term,
* the tile's sum of the mask values,
* the tile's sum over entries `r` and over all 1024 entries `j` of the row of the pair term of `(r, j)`,
* the same double sum of the pairs' validity factors,

each as a sum along the lanes followed by a sum down the 512 rows, and adds each scalar, broadcast along the 128
lanes of its accumulator block, to that block. -/

noncomputable section

namespace Cert.KernelIdeal.Payloads

open Idealize.ShloMosaic Idealize.ShloMosaic.ValueIdx Cert.KernelIdeal Cert.KernelIdeal.Gen Cert.RankLoss

/-- A one-element array cast to another one-element shape reads its only element. -/
theorem shapeCast_single {α : Type} {s u : Shape} (x : s.Idx → α) (h : s.ShapeCasts u) (hs : s.numel = 1) (hu : u.numel = 1)
    (j : u.Idx) (k : s.Idx) : shapeCast u x h j = x k :=
  shapeCast_apply x h j k (by have := (s.rowMajor k).isLt; have := (u.rowMajor j).isLt; omega)

/-- A `[1, 1, 1]` array broadcast along 128 lanes reads its only element everywhere. -/
theorem bcast_lanes_apply {α : Type} (v : S1x1x1.Idx → α) (h : S1x1x1.Broadcasts S1x1x128) (y : S1x1x128.Idx) :
    broadcastTo S1x1x128 v h y = v (ix3 (0 : Fin 1) (0 : Fin 1) (0 : Fin 1)) :=
  broadcastTo_apply v h y _ fun a => by
    match a with
    | ⟨0, _⟩ => rfl
    | ⟨1, _⟩ => rfl
    | ⟨2, _⟩ => rfl

/-- The four accumulating stores: the carried block plus a scalar, the same on every lane. -/
theorem pay18_apply (s : FVec Ideal S1x1 .f32) (acc : Vec Ideal S1x1x128 .f32) (y : S1x1x128.Idx) :
    k0_pay18 s acc y = acc y + s (ix2 (0 : Fin 1) (0 : Fin 1)) := by
  unfold k0_pay18
  rw [addf_apply, shapeCast_self, bcast_lanes_apply, shapeCast_self]
  exact congrArg (acc y + ·) (shapeCast_single s _ rfl rfl _ _)

theorem pay1_apply (s : FVec Ideal S1x1 .f32) (acc : Vec Ideal S1x1x128 .f32) (y : S1x1x128.Idx) :
    k0_pay1 s acc y = acc y + s (ix2 (0 : Fin 1) (0 : Fin 1)) := by
  unfold k0_pay1
  rw [addf_apply, shapeCast_self, bcast_lanes_apply, shapeCast_self]
  exact congrArg (acc y + ·) (shapeCast_single s _ rfl rfl _ _)

theorem pay2_apply (s : FVec Ideal S1x1 .f32) (acc : Vec Ideal S1x1x128 .f32) (y : S1x1x128.Idx) :
    k0_pay2 s acc y = acc y + s (ix2 (0 : Fin 1) (0 : Fin 1)) := by
  unfold k0_pay2
  rw [addf_apply, shapeCast_self, bcast_lanes_apply, shapeCast_self]
  exact congrArg (acc y + ·) (shapeCast_single s _ rfl rfl _ _)

theorem pay19_apply (s : FVec Ideal S1 .f32) (acc : Vec Ideal S1x1x128 .f32) (y : S1x1x128.Idx) :
    k0_pay19 s acc y = acc y + s (ix1 (0 : Fin 1)) := by
  unfold k0_pay19
  rw [addf_apply, shapeCast_self, bcast_lanes_apply, shapeCast_self]
  refine congrArg (acc y + ·) ((shapeCast_single _ _ rfl rfl _ (ix2 (0 : Fin 1) (0 : Fin 1))).trans ?_)
  exact shapeCast_single s _ rfl rfl _ _

/-- The zero block the first tile of a batch row stores. -/
theorem pay3_apply (y : S1x1x128.Idx) : k0_pay3 (F := Ideal) y = 0 := z0_eq
theorem pay4_apply (y : S1x1x128.Idx) : k0_pay4 (F := Ideal) y = 0 := z0_eq
theorem pay5_apply (y : S1x1x128.Idx) : k0_pay5 (F := Ideal) y = 0 := z0_eq
theorem pay6_apply (y : S1x1x128.Idx) : k0_pay6 (F := Ideal) y = 0 := z0_eq

/-- A sum down the 512 rows of a one-column array. -/
theorem colsum_apply (src : FVec Ideal S512x1 .f32) (h : S512x1.Reduces [(0 : Fin 2)] S1)
    (hφ : FKind.Formats FTy.f32) (hacc : (0x00000000#32 : BitVec 32) = FKind.add.neutral FTy.f32 hφ) (y : S1.Idx) :
    multiReduction .add [(0 : Fin 2)] S1 src 0x00000000#32 h hφ hacc y = ∑ r : Fin 512, src (ix2 r (0 : Fin 1)) := by
  have hy : y = ix1 (0 : Fin 1) := (eq_ix1 y).trans (congrArg ix1 (Fin.ext (by have h1 : (y 0).val < 1 := (y 0).isLt; show (y 0).val = 0; omega)))
  rw [hy]
  exact multiReduction_add_col src 0x00000000#32 h hφ hacc (0 : Fin 1)

/-- A sum along the 1024 lanes of each of 512 rows. -/
theorem rowsum_apply (src : FVec Ideal S512x1024 .f32) (h : S512x1024.Reduces [(1 : Fin 2)] S512)
    (hφ : FKind.Formats FTy.f32) (hacc : (0x00000000#32 : BitVec 32) = FKind.add.neutral FTy.f32 hφ) (r : Fin 512) :
    multiReduction .add [(1 : Fin 2)] S512 src 0x00000000#32 h hφ hacc (ix1 r) = ∑ j : Fin 1024, src (ix2 r j) :=
  multiReduction_add_row src 0x00000000#32 h hφ hacc r

/-- The tile's masked Huber sum. -/
theorem pay13_apply (x0 x1 x2 : Vec Ideal S1x512x1 .f32) (y : S1x1.Idx) :
    k0_pay13 x0 x1 x2 y
      = ∑ r : Fin 512, hubf (x0 (ix3 (0 : Fin 1) r (0 : Fin 1))) (x1 (ix3 (0 : Fin 1) r (0 : Fin 1))) (x2 (ix3 (0 : Fin 1) r (0 : Fin 1))) := by
  unfold k0_pay13 k0_pay7 k0_pay8 k0_pay9
  refine (shapeCast_single _ _ rfl rfl y (ix1 (0 : Fin 1))).trans ?_
  refine (colsum_apply _ _ _ _ _).trans (Finset.sum_congr rfl fun r _ => ?_)
  show hubf (shapeCast S512x1 x0 _ (ix2 r (0 : Fin 1))) (shapeCast S512x1 x1 _ (ix2 r (0 : Fin 1))) (shapeCast S512x1 x2 _ (ix2 r (0 : Fin 1))) = _
  rw [shapeCast_1ab_ab_apply, shapeCast_1ab_ab_apply, shapeCast_1ab_ab_apply]

/-- The tile's sum of mask values. -/
theorem pay14_apply (x2 : Vec Ideal S1x512x1 .f32) (y : S1.Idx) :
    k0_pay14 x2 y = ∑ r : Fin 512, x2 (ix3 (0 : Fin 1) r (0 : Fin 1)) := by
  unfold k0_pay14 k0_pay9
  refine (colsum_apply _ _ _ _ _).trans (Finset.sum_congr rfl fun r _ => ?_)
  exact shapeCast_1ab_ab_apply x2 _ r (0 : Fin 1)

/-- The validity factor of the pair (tile entry `r`, row entry `j`). -/
theorem pay15_apply (v6 v8 : FVec Ideal S512x1 .f32) (v12 v14 : FVec Ideal S1x1024 .f32) (r : Fin 512) (j : Fin 1024) :
    k0_pay15 v6 v8 v12 v14 (ix2 r j)
      = validK (v6 (ix2 r (0 : Fin 1))) (v12 (ix2 (0 : Fin 1) j)) (v8 (ix2 r (0 : Fin 1))) (v14 (ix2 (0 : Fin 1) j)) := by
  unfold k0_pay15
  show FloatOps.mulf (FloatOps.mulf (broadcastTo S512x1024 v8 _ (ix2 r j)) (broadcastTo S512x1024 v14 _ (ix2 r j)))
    (FloatOps.sitofp .f32 ((FloatOps.cmpf .ogt (FloatOps.subf (broadcastTo S512x1024 v12 _ (ix2 r j)) (broadcastTo S512x1024 v6 _ (ix2 r j))) z0).setWidth 32)) = _
  rw [broadcastTo_a1_ab_apply, broadcastTo_a1_ab_apply, broadcastTo_1b_ab_apply, broadcastTo_1b_ab_apply]
  rfl

/-- The tile's double sum of pair terms. -/
theorem pay16_apply (v4 v6 v8 : FVec Ideal S512x1 .f32) (v10 v12 v14 : FVec Ideal S1x1024 .f32) (y : S1x1.Idx) :
    k0_pay16 v4 v6 v8 v10 v12 v14 y
      = ∑ r : Fin 512, ∑ j : Fin 1024, pairK (v4 (ix2 r (0 : Fin 1))) (v10 (ix2 (0 : Fin 1) j)) (v6 (ix2 r (0 : Fin 1))) (v12 (ix2 (0 : Fin 1) j))
          (v8 (ix2 r (0 : Fin 1))) (v14 (ix2 (0 : Fin 1) j)) := by
  unfold k0_pay16
  refine (shapeCast_single _ _ rfl rfl y (ix1 (0 : Fin 1))).trans ?_
  refine (colsum_apply _ _ _ _ _).trans (Finset.sum_congr rfl fun r _ => ?_)
  refine (shapeCast_a_a1_apply _ _ r (0 : Fin 1)).trans ?_
  refine (rowsum_apply _ _ _ _ r).trans (Finset.sum_congr rfl fun j _ => ?_)
  show FloatOps.mulf (k0_pay15 v6 v8 v12 v14 (ix2 r j))
    (FloatOps.maximumf (FloatOps.subf (broadcastTo S512x1024 v4 _ (ix2 r j)) (broadcastTo S512x1024 v10 _ (ix2 r j))) z0) = _
  rw [pay15_apply, broadcastTo_a1_ab_apply, broadcastTo_1b_ab_apply]
  rfl

/-- The tile's double sum of validity factors. -/
theorem pay17_apply (v6 v8 : FVec Ideal S512x1 .f32) (v12 v14 : FVec Ideal S1x1024 .f32) (y : S1x1.Idx) :
    k0_pay17 v6 v8 v12 v14 y
      = ∑ r : Fin 512, ∑ j : Fin 1024, validK (v6 (ix2 r (0 : Fin 1))) (v12 (ix2 (0 : Fin 1) j)) (v8 (ix2 r (0 : Fin 1))) (v14 (ix2 (0 : Fin 1) j)) := by
  unfold k0_pay17
  refine (shapeCast_single _ _ rfl rfl y (ix1 (0 : Fin 1))).trans ?_
  refine (colsum_apply _ _ _ _ _).trans (Finset.sum_congr rfl fun r _ => ?_)
  refine (shapeCast_a_a1_apply _ _ r (0 : Fin 1)).trans ?_
  refine (rowsum_apply _ _ _ _ r).trans (Finset.sum_congr rfl fun j _ => ?_)
  exact pay15_apply v6 v8 v12 v14 r j

/-- The column blocks `[1, 512, 1]` and the row blocks `[1, 1, 1024]` with the leading unit axis dropped. -/
theorem pay7_apply (x : Vec Ideal S1x512x1 .f32) (r : Fin 512) : k0_pay7 x (ix2 r (0 : Fin 1)) = x (ix3 (0 : Fin 1) r (0 : Fin 1)) :=
  shapeCast_1ab_ab_apply x _ r (0 : Fin 1)
theorem pay8_apply (x : Vec Ideal S1x512x1 .f32) (r : Fin 512) : k0_pay8 x (ix2 r (0 : Fin 1)) = x (ix3 (0 : Fin 1) r (0 : Fin 1)) :=
  shapeCast_1ab_ab_apply x _ r (0 : Fin 1)
theorem pay9_apply (x : Vec Ideal S1x512x1 .f32) (r : Fin 512) : k0_pay9 x (ix2 r (0 : Fin 1)) = x (ix3 (0 : Fin 1) r (0 : Fin 1)) :=
  shapeCast_1ab_ab_apply x _ r (0 : Fin 1)
theorem pay10_apply (x : Vec Ideal S1x1x1024 .f32) (j : Fin 1024) : k0_pay10 x (ix2 (0 : Fin 1) j) = x (ix3 (0 : Fin 1) (0 : Fin 1) j) :=
  shapeCast_1ab_ab_apply x _ (0 : Fin 1) j
theorem pay11_apply (x : Vec Ideal S1x1x1024 .f32) (j : Fin 1024) : k0_pay11 x (ix2 (0 : Fin 1) j) = x (ix3 (0 : Fin 1) (0 : Fin 1) j) :=
  shapeCast_1ab_ab_apply x _ (0 : Fin 1) j
theorem pay12_apply (x : Vec Ideal S1x1x1024 .f32) (j : Fin 1024) : k0_pay12 x (ix2 (0 : Fin 1) j) = x (ix3 (0 : Fin 1) (0 : Fin 1) j) :=
  shapeCast_1ab_ab_apply x _ (0 : Fin 1) j

end Cert.KernelIdeal.Payloads

end
-- ==== Proof.KernelSteps.lean ====
import proofs.«128812_j19121194402346_2_alg».proof.Proof.Pieces
import proofs.«128812_j19121194402346_2_alg».proof.Proof.Payloads

/-! # The accumulator blocks, grid step by grid step

The grid has 64 steps: step `t` handles batch row `t / 2` and row tile `t % 2`. An even step zeroes the four
accumulator blocks and adds its tile's four scalars; the odd step after it adds its own scalars to what the even
step left, and its blocks are the ones written back. So after an odd step each accumulator block holds, on every
lane, `(0 + s (t - 1)) + s t` of the two tiles' scalars. -/

noncomputable section

open Idealize.ShloMosaic Idealize.ShloMosaic.TcCoe Idealize.SL.Sem
open Idealize.ShloMosaic.Pipeline (Dat)

namespace Cert.KernelIdeal.Steps

open Idealize.ShloMosaic.ValueIdx Cert.KernelIdeal Cert.KernelIdeal.Gen Cert.KernelIdeal.Payloads

variable (m : (ℓ : Loc nD τ sig) → Buf (Elt Ideal) ℓ)

/-- The four scalars of step `t`, as the body's arithmetic of the step's input blocks: the tile's masked Huber sum,
    its mask sum, its sum of pair terms and its sum of validity factors. -/
def s6 (c : Dev nD) (t : Fin cfg0.N) : EReal :=
  k0_pay13 (F := Ideal) (iblk m c 0 t) (iblk m c 1 t) (iblk m c 2 t) (ix2 (0 : Fin 1) (0 : Fin 1))
def s7 (c : Dev nD) (t : Fin cfg0.N) : EReal :=
  k0_pay14 (F := Ideal) (iblk m c 2 t) (ix1 (0 : Fin 1))
def s8 (c : Dev nD) (t : Fin cfg0.N) : EReal :=
  k0_pay16 (F := Ideal) (k0_pay7 (iblk m c 0 t)) (k0_pay8 (iblk m c 1 t)) (k0_pay9 (iblk m c 2 t)) (k0_pay10 (iblk m c 3 t))
    (k0_pay11 (iblk m c 4 t)) (k0_pay12 (iblk m c 5 t)) (ix2 (0 : Fin 1) (0 : Fin 1))
def s9 (c : Dev nD) (t : Fin cfg0.N) : EReal :=
  k0_pay17 (F := Ideal) (k0_pay8 (iblk m c 1 t)) (k0_pay9 (iblk m c 2 t)) (k0_pay11 (iblk m c 4 t)) (k0_pay12 (iblk m c 5 t))
    (ix2 (0 : Fin 1) (0 : Fin 1))

/-- After an even step accumulator 6 holds, on every lane, zero plus the step's scalar. -/
theorem even_6 (c : Dev nD) (t : Fin cfg0.N) (h0 : t.val % 2 = 0) (y : S1x1x128.Idx) :
    (outsAt0 m c t.val t.isLt).1 y = 0 + s6 m c t := by
  rw [outsAt0_A m c t h0]
  dsimp only
  refine (congrFun (Pieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t)) y).trans ?_
  refine (pay18_apply _ _ y).trans ?_
  rw [pay3_apply]
  rfl

/-- After an odd step accumulator 6 holds, on every lane, what the step before left plus the step's scalar. -/
theorem odd_6 (c : Dev nD) (t : Fin cfg0.N) (h0 : ¬t.val % 2 = 0) (y : S1x1x128.Idx) :
    (outsAt0 m c t.val t.isLt).1 y
      = (outsAt0 m c (t.val - 1) (Nat.lt_of_le_of_lt (Nat.sub_le _ _) t.isLt)).1 y + s6 m c t := by
  rw [outsAt0_B m c t h0]
  dsimp only
  refine (congrFun (Pieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
  exact pay18_apply _ _ y

/-- So after the odd step `t` it holds `(0 + s (t - 1)) + s t`: the two tiles of one batch row. -/
theorem pair_6 (c : Dev nD) (t : Fin cfg0.N) (h0 : ¬t.val % 2 = 0) (y : S1x1x128.Idx) :
    (outsAt0 m c t.val t.isLt).1 y
      = (0 + s6 m c ⟨t.val - 1, Nat.lt_of_le_of_lt (Nat.sub_le _ _) t.isLt⟩) + s6 m c t := by
  rw [odd_6 m c t h0 y]
  exact congrArg (· + s6 m c t) (even_6 m c ⟨t.val - 1, Nat.lt_of_le_of_lt (Nat.sub_le _ _) t.isLt⟩ (by show (t.val - 1) % 2 = 0; omega) y)

/-- After an even step accumulator 7 holds, on every lane, zero plus the step's scalar. -/
theorem even_7 (c : Dev nD) (t : Fin cfg0.N) (h0 : t.val % 2 = 0) (y : S1x1x128.Idx) :
    (outsAt0 m c t.val t.isLt).2.1 y = 0 + s7 m c t := by
  rw [outsAt0_A m c t h0]
  dsimp only
  refine (congrFun (Pieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t)) y).trans ?_
  refine (pay19_apply _ _ y).trans ?_
  rw [pay4_apply]
  rfl

/-- After an odd step accumulator 7 holds, on every lane, what the step before left plus the step's scalar. -/
theorem odd_7 (c : Dev nD) (t : Fin cfg0.N) (h0 : ¬t.val % 2 = 0) (y : S1x1x128.Idx) :
    (outsAt0 m c t.val t.isLt).2.1 y
      = (outsAt0 m c (t.val - 1) (Nat.lt_of_le_of_lt (Nat.sub_le _ _) t.isLt)).2.1 y + s7 m c t := by
  rw [outsAt0_B m c t h0]
  dsimp only
  refine (congrFun (Pieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
  exact pay19_apply _ _ y

/-- So after the odd step `t` it holds `(0 + s (t - 1)) + s t`: the two tiles of one batch row. -/
theorem pair_7 (c : Dev nD) (t : Fin cfg0.N) (h0 : ¬t.val % 2 = 0) (y : S1x1x128.Idx) :
    (outsAt0 m c t.val t.isLt).2.1 y
      = (0 + s7 m c ⟨t.val - 1, Nat.lt_of_le_of_lt (Nat.sub_le _ _) t.isLt⟩) + s7 m c t := by
  rw [odd_7 m c t h0 y]
  exact congrArg (· + s7 m c t) (even_7 m c ⟨t.val - 1, Nat.lt_of_le_of_lt (Nat.sub_le _ _) t.isLt⟩ (by show (t.val - 1) % 2 = 0; omega) y)

/-- After an even step accumulator 8 holds, on every lane, zero plus the step's scalar. -/
theorem even_8 (c : Dev nD) (t : Fin cfg0.N) (h0 : t.val % 2 = 0) (y : S1x1x128.Idx) :
    (outsAt0 m c t.val t.isLt).2.2.1 y = 0 + s8 m c t := by
  rw [outsAt0_A m c t h0]
  dsimp only
  refine (congrFun (Pieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t)) y).trans ?_
  refine (pay1_apply _ _ y).trans ?_
  rw [pay5_apply]
  rfl

/-- After an odd step accumulator 8 holds, on every lane, what the step before left plus the step's scalar. -/
theorem odd_8 (c : Dev nD) (t : Fin cfg0.N) (h0 : ¬t.val % 2 = 0) (y : S1x1x128.Idx) :
    (outsAt0 m c t.val t.isLt).2.2.1 y
      = (outsAt0 m c (t.val - 1) (Nat.lt_of_le_of_lt (Nat.sub_le _ _) t.isLt)).2.2.1 y + s8 m c t := by
  rw [outsAt0_B m c t h0]
  dsimp only
  refine (congrFun (Pieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
  exact pay1_apply _ _ y

/-- So after the odd step `t` it holds `(0 + s (t - 1)) + s t`: the two tiles of one batch row. -/
theorem pair_8 (c : Dev nD) (t : Fin cfg0.N) (h0 : ¬t.val % 2 = 0) (y : S1x1x128.Idx) :
    (outsAt0 m c t.val t.isLt).2.2.1 y
      = (0 + s8 m c ⟨t.val - 1, Nat.lt_of_le_of_lt (Nat.sub_le _ _) t.isLt⟩) + s8 m c t := by
  rw [odd_8 m c t h0 y]
  exact congrArg (· + s8 m c t) (even_8 m c ⟨t.val - 1, Nat.lt_of_le_of_lt (Nat.sub_le _ _) t.isLt⟩ (by show (t.val - 1) % 2 = 0; omega) y)

/-- After an even step accumulator 9 holds, on every lane, zero plus the step's scalar. -/
theorem even_9 (c : Dev nD) (t : Fin cfg0.N) (h0 : t.val % 2 = 0) (y : S1x1x128.Idx) :
    (outsAt0 m c t.val t.isLt).2.2.2 y = 0 + s9 m c t := by
  rw [outsAt0_A m c t h0]
  dsimp only
  refine (congrFun (Pieces.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t)) y).trans ?_
  refine (pay2_apply _ _ y).trans ?_
  rw [pay6_apply]
  rfl

/-- After an odd step accumulator 9 holds, on every lane, what the step before left plus the step's scalar. -/
theorem odd_9 (c : Dev nD) (t : Fin cfg0.N) (h0 : ¬t.val % 2 = 0) (y : S1x1x128.Idx) :
    (outsAt0 m c t.val t.isLt).2.2.2 y
      = (outsAt0 m c (t.val - 1) (Nat.lt_of_le_of_lt (Nat.sub_le _ _) t.isLt)).2.2.2 y + s9 m c t := by
  rw [outsAt0_B m c t h0]
  dsimp only
  refine (congrFun (Pieces.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
  exact pay2_apply _ _ y

/-- So after the odd step `t` it holds `(0 + s (t - 1)) + s t`: the two tiles of one batch row. -/
theorem pair_9 (c : Dev nD) (t : Fin cfg0.N) (h0 : ¬t.val % 2 = 0) (y : S1x1x128.Idx) :
    (outsAt0 m c t.val t.isLt).2.2.2 y
      = (0 + s9 m c ⟨t.val - 1, Nat.lt_of_le_of_lt (Nat.sub_le _ _) t.isLt⟩) + s9 m c t := by
  rw [odd_9 m c t h0 y]
  exact congrArg (· + s9 m c t) (even_9 m c ⟨t.val - 1, Nat.lt_of_le_of_lt (Nat.sub_le _ _) t.isLt⟩ (by show (t.val - 1) % 2 = 0; omega) y)

end Cert.KernelIdeal.Steps

end
-- ==== Proof.LibCountLaw.lean ====
/-
  Counting by integers and counting by reals agree.

  One side counts a column's positive entries by adding the one-bit comparison results, widened to 32-bit words, in
  32-bit arithmetic, and converts the final word (read as a signed integer) to a real. The other side converts each
  widened word to a real first (0 or 1) and adds the reals. The two agree as long as the 32-bit sum cannot wrap or turn
  negative: with fewer than 2³¹ summands, each 0 or 1, the running sum stays below 2³¹.
-/
import Idealize.ShloMosaic.PureOps.Reduce
import Idealize.ShloMosaic.PureOps.Ideal

namespace Cert.CountLaw

open Idealize.ShloMosaic

/-- The extended-real image of a finite sum of reals is the sum of the images. -/
theorem coe_sum {ι : Type} (S : Finset ι) (r : ι → ℝ) : ((∑ k ∈ S, r k : ℝ) : EReal) = ∑ k ∈ S, (r k : EReal) := by
  classical
  induction S using Finset.induction_on with
  | empty => simp
  | insert a S ha ih => rw [Finset.sum_insert ha, Finset.sum_insert ha, EReal.coe_add, ih]

/-- A one-bit word widened to 32 bits is 0 or 1 as a natural number, and the same as a signed integer. -/
theorem toNat_widen_le (b : BitVec 1) : (b.setWidth 32).toNat ≤ 1 := by
  rcases BitVec.eq_zero_or_eq_one b with h | h <;> subst h <;> decide
theorem toInt_widen (b : BitVec 1) : (b.setWidth 32).toInt = ((b.setWidth 32).toNat : ℤ) := by
  rcases BitVec.eq_zero_or_eq_one b with h | h <;> subst h <;> decide

/-- The 32-bit sum of fewer than 2³¹ words, each 0 or 1, is the plain sum of their values: nothing wraps. -/
theorem fold_toNat {ι : Type} [DecidableEq ι] (S : Finset ι) (g : ι → BitVec 32) (hg : ∀ k, (g k).toNat ≤ 1)
    (hS : S.card < 2147483648) : (S.fold IntOp.addi 0#32 g).toNat = ∑ k ∈ S, (g k).toNat := by
  induction S using Finset.induction_on with
  | empty => rfl
  | insert a S ha ih =>
    rw [Finset.card_insert_of_notMem ha] at hS
    have ih' := ih (by omega)
    have hb : ∑ k ∈ S, (g k).toNat ≤ S.card := by
      calc ∑ k ∈ S, (g k).toNat ≤ ∑ _k ∈ S, 1 := Finset.sum_le_sum fun k _ => hg k
        _ = S.card := by simp
    rw [Finset.fold_insert ha, Finset.sum_insert ha]
    show (g a + S.fold IntOp.addi 0#32 g).toNat = _
    rw [BitVec.toNat_add, ih']
    have := hg a
    omega

/-- THE LAW: for fewer than 2³¹ one-bit words, the 32-bit sum of their widenings, read signed and made a real, is the
    sum of the widenings each read signed and made a real. -/
theorem count_law {n : Nat} (hn : n < 2147483648) (b : Fin n → BitVec 1) :
    ((((Finset.univ : Finset (Fin n)).fold IntOp.addi 0#32 (fun k => (b k).setWidth 32)).toInt : ℝ) : EReal)
      = ∑ k : Fin n, ((((b k).setWidth 32).toInt : ℝ) : EReal) := by
  have hN := fold_toNat (Finset.univ : Finset (Fin n)) (fun k => (b k).setWidth 32) (fun k => toNat_widen_le (b k))
    (by rw [Finset.card_univ, Fintype.card_fin]; exact hn)
  have hle : ∑ k : Fin n, ((b k).setWidth 32).toNat ≤ n := by
    calc ∑ k : Fin n, ((b k).setWidth 32).toNat ≤ ∑ _k : Fin n, 1 := Finset.sum_le_sum fun k _ => toNat_widen_le (b k)
      _ = n := by simp
  have hI : ((Finset.univ : Finset (Fin n)).fold IntOp.addi 0#32 (fun k => (b k).setWidth 32)).toInt
      = ((∑ k : Fin n, ((b k).setWidth 32).toNat : ℕ) : ℤ) := by
    rw [BitVec.toInt_eq_toNat_of_lt (by rw [hN]; omega), hN]
  rw [hI, ← coe_sum]
  refine congrArg (fun r : ℝ => (r : EReal)) ?_
  push_cast
  refine Finset.sum_congr rfl fun k _ => ?_
  rw [toInt_widen]
  push_cast
  rfl

end Cert.CountLaw
-- ==== Proof.Loss.lean ====
import proofs.«128812_j19121194402346_2_alg».proof.Proof.Spec
import proofs.«128812_j19121194402346_2_alg».proof.Proof.LibCountLaw
import Idealize.ShloMosaic.PureOps.Reduce

/-! # The loss as one function of the three argument arrays, in two arrangements

Over predictions `P`, targets `T` (both `[32, 1024]` floats) and mask bits `M` (`[32, 1024]`):

* the TILED arrangement sums each batch row in two tiles of 512 entries, `(0 + tile 0) + tile 1`, then over the 32
  rows from zero; its pair count is a float sum of validity factors;
* the FLAT arrangement sums over all `32·1024` entries, or all `32·1024·1024` pairs, at once from zero; its pair count
  is a 32-bit integer sum of validity bits, clamped below at one as an integer and then made a float.

Addition of extended reals is commutative and associative, so the sums agree term by term once the pair terms
agree; they do on finite predictions. The integer count does not wrap (there are `2^25 < 2^31` pairs), so it is the
float count. -/

noncomputable section

namespace Cert.RankLoss

open Idealize.ShloMosaic Idealize.ShloMosaic.ValueIdx

abbrev S2 : Shape := ⟨2, ![32, 1024]⟩
abbrev S3 : Shape := ⟨3, ![32, 1024, 1024]⟩

/-- Entry `r` of row tile `tile`, as an entry of the row. -/
def rowOf (tile : Fin 2) (r : Fin 512) : Fin 1024 := ⟨tile.val * 512 + r.val, by have := tile.isLt; have := r.isLt; omega⟩

variable (P T : S2.Idx → EReal) (M : S2.Idx → BitVec 1)

/-- The mask as floats. -/
def maskf (i : S2.Idx) : EReal := FloatOps.uitofp (F := Ideal) .f32 (M i)

/-- One tile's four sums. -/
def tileHub (b : Fin 32) (tile : Fin 2) : EReal :=
  ∑ r : Fin 512, hubf (P (ix2 b (rowOf tile r))) (T (ix2 b (rowOf tile r))) (maskf M (ix2 b (rowOf tile r)))
def tileMask (b : Fin 32) (tile : Fin 2) : EReal := ∑ r : Fin 512, maskf M (ix2 b (rowOf tile r))
def tilePair (b : Fin 32) (tile : Fin 2) : EReal :=
  ∑ r : Fin 512, ∑ j : Fin 1024, pairK (P (ix2 b (rowOf tile r))) (P (ix2 b j)) (T (ix2 b (rowOf tile r))) (T (ix2 b j))
    (maskf M (ix2 b (rowOf tile r))) (maskf M (ix2 b j))
def tileValid (b : Fin 32) (tile : Fin 2) : EReal :=
  ∑ r : Fin 512, ∑ j : Fin 1024, validK (T (ix2 b (rowOf tile r))) (T (ix2 b j)) (maskf M (ix2 b (rowOf tile r))) (maskf M (ix2 b j))

/-- The tiled total of a per-tile quantity: per batch row `(0 + tile 0) + tile 1`, summed over the rows from zero. -/
def tiledTotal (f : Fin 32 → Fin 2 → EReal) : EReal := z0 + ∑ b : Fin 32, ((0 + f b 0) + f b 1)

/-- The loss from its four totals: the Huber total over the mask total clamped below at one, plus half the pair
    total over the (already clamped) pair count. -/
def combine (hub msk pr cnt : EReal) : EReal :=
  FloatOps.addf (F := Ideal) (φ := .f32)
    (FloatOps.hostDivf (F := Ideal) (φ := .f32) hub (FloatOps.maximumf (F := Ideal) (φ := .f32) msk one))
    (FloatOps.mulf (F := Ideal) (φ := .f32) half (FloatOps.hostDivf (F := Ideal) (φ := .f32) pr cnt))

/-- The loss in the tiled arrangement. -/
def tiledLoss : EReal :=
  combine (tiledTotal (tileHub P T M)) (tiledTotal (tileMask M)) (tiledTotal (tilePair P T M))
    (FloatOps.maximumf (F := Ideal) (φ := .f32) (tiledTotal (tileValid T M)) one)

theorem tiledLoss_def : tiledLoss P T M = combine (tiledTotal (tileHub P T M)) (tiledTotal (tileMask M)) (tiledTotal (tilePair P T M))
    (FloatOps.maximumf (F := Ideal) (φ := .f32) (tiledTotal (tileValid T M)) one) := rfl

/-- The pair `(i, j)` of batch row `b`: its validity bit and its selected term. -/
def condAt (q : S3.Idx) : BitVec 1 := condR (T (ix2 (q 0) (q 1))) (T (ix2 (q 0) (q 2))) (M (ix2 (q 0) (q 1))) (M (ix2 (q 0) (q 2)))
def pairAt (q : S3.Idx) : EReal := pairR (P (ix2 (q 0) (q 1))) (P (ix2 (q 0) (q 2))) (condAt T M q)

/-- The 32-bit count of valid pairs. -/
def countBits : BitVec 32 := (Finset.univ : Finset S3.Idx).fold IntOp.addi 0#32 (fun q => (condAt T M q).setWidth 32)

/-- The loss in the flat arrangement. -/
def flatLoss : EReal :=
  combine (z0 + ∑ i : S2.Idx, hubf (P i) (T i) (maskf M i)) (z0 + ∑ i : S2.Idx, maskf M i) (z0 + ∑ q : S3.Idx, pairAt P T M q)
    (FloatOps.sitofp (F := Ideal) .f32 (IntOp.maxsi (countBits T M) 1#32))

end Cert.RankLoss

end
-- ==== Proof.KernelArrays.lean ====
import proofs.«128812_j19121194402346_2_alg».proof.Proof.KernelSteps
import proofs.«128812_j19121194402346_2_alg».proof.Proof.Loss
import Idealize.ShloMosaic.Lib.StableHlo.Run

/-! # The four output arrays as functions of the argument arrays

Before the launch the program casts the mask to floats and reshapes each `[32, 1024]` array once to a column form
`[32, 1024, 1]` and once to a row form `[32, 1, 1024]`. Step `t` reads block `(t / 2, t % 2)` of each column form —
entries `512·(t % 2) + r` of batch row `t / 2` — and block `t / 2` of each row form, the whole batch row. So the
step's four scalars are the tile sums of the loss, and each `[32, 1, 128]` output array ends holding, at batch row
`b` on every lane, `(0 + tile 0) + tile 1` of that row. -/

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.KernelIdeal.Payloads Cert.KernelIdeal.Steps Cert.RankLoss

variable (m : (ℓ : Loc nD τ sig) → Buf (Elt Ideal) ℓ)

/-- The three argument arrays on device `c`. -/
abbrev argP (c : Dev nD) : S2.Idx → EReal := m ((c.tc : Thread nD τ).loc main_arg0)
abbrev argT (c : Dev nD) : S2.Idx → EReal := m ((c.tc : Thread nD τ).loc main_arg1)
abbrev argM (c : Dev nD) : S2.Idx → BitVec 1 := m ((c.tc : Thread nD τ).loc main_arg2)

/-- The block indices of the windows, decided over the grid: the column windows move with `(t / 2, t % 2)`, the row
    windows and the outputs with `t / 2`. -/
theorem idx_col : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)
theorem idx_row : ∀ t : Fin cfg0.N,
    win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)
theorem idx_out : ∀ t : Fin cfg0.N,
    win0_6.index t (0 : Fin 3) = t.val / 2 ∧ win0_6.index t (1 : Fin 3) = 0 ∧ win0_6.index t (2 : Fin 3) = 0
    ∧ win0_7.index t (0 : Fin 3) = t.val / 2 ∧ win0_7.index t (1 : Fin 3) = 0 ∧ win0_7.index t (2 : Fin 3) = 0
    ∧ win0_8.index t (0 : Fin 3) = t.val / 2 ∧ win0_8.index t (1 : Fin 3) = 0 ∧ win0_8.index t (2 : Fin 3) = 0
    ∧ win0_9.index t (0 : Fin 3) = t.val / 2 ∧ win0_9.index t (1 : Fin 3) = 0 ∧ win0_9.index t (2 : Fin 3) = 0 :=
  (by decide +kernel : ∀ t : Fin grid0.N, _)

/-- The arrays the region finds: the reshapes of the arguments, the mask cast to floats first. -/
theorem V_v1 (c : Dev nD) : (V m c main_v1 : S32x1024x1.Idx → EReal) = shapeCast S32x1024x1 (argP m c) shapeCasts_S32x1024_S32x1024x1 := by
  show StableHlo.after hostOps0 (fun b => m (c, b)) (Proc.devRef .tc main_v1) = _; after_results; rfl
theorem V_v2 (c : Dev nD) : (V m c main_v2 : S32x1024x1.Idx → EReal) = shapeCast S32x1024x1 (argT m c) shapeCasts_S32x1024_S32x1024x1 := by
  show StableHlo.after hostOps0 (fun b => m (c, b)) (Proc.devRef .tc main_v2) = _; after_results; rfl
theorem V_v3 (c : Dev nD) : (V m c main_v3 : S32x1024x1.Idx → EReal) = shapeCast S32x1024x1 (maskf (argM m c)) shapeCasts_S32x1024_S32x1024x1 := by
  show StableHlo.after hostOps0 (fun b => m (c, b)) (Proc.devRef .tc main_v3) = _; after_results; rfl
theorem V_v4 (c : Dev nD) : (V m c main_v4 : S32x1x1024.Idx → EReal) = shapeCast S32x1x1024 (argP m c) shapeCasts_S32x1024_S32x1x1024 := by
  show StableHlo.after hostOps0 (fun b => m (c, b)) (Proc.devRef .tc main_v4) = _; after_results; rfl
theorem V_v5 (c : Dev nD) : (V m c main_v5 : S32x1x1024.Idx → EReal) = shapeCast S32x1x1024 (argT m c) shapeCasts_S32x1024_S32x1x1024 := by
  show StableHlo.after hostOps0 (fun b => m (c, b)) (Proc.devRef .tc main_v5) = _; after_results; rfl
theorem V_v6 (c : Dev nD) : (V m c main_v6 : S32x1x1024.Idx → EReal) = shapeCast S32x1x1024 (maskf (argM m c)) shapeCasts_S32x1024_S32x1x1024 := by
  show StableHlo.after hostOps0 (fun b => m (c, b)) (Proc.devRef .tc main_v6) = _; after_results; rfl

/-- The batch row and the row tile of a step. -/
def rowB (t : Fin cfg0.N) : Fin 32 := ⟨t.val / 2, by have := lt_of_lt_of_eq t.isLt (show cfg0.N = 64 from N_0); omega⟩
def tileB (t : Fin cfg0.N) : Fin 2 := ⟨t.val % 2, by omega⟩

/-- A column form read at `(b, n, 0)` and a row form read at `(b, 0, n)` are the array at `(b, n)`. -/
theorem colform_apply {α : Type} (x : S2.Idx → α) (h : S32x1024.ShapeCasts S32x1024x1) (j : S32x1024x1.Idx) (b : Fin 32) (n : Fin 1024)
    (h0 : (j 0).val = b.val) (h1 : (j 1).val = n.val) : shapeCast S32x1024x1 x h j = x (ix2 b n) :=
  shapeCast_apply x h j (ix2 b n) (by
    rw [Shape.rowMajor_val_two, Shape.rowMajor_val_three]
    have h2 : (j 2).val < 1 := (j 2).isLt
    show b.val * 1024 + n.val = ((j 0).val * 1024 + (j 1).val) * 1 + (j 2).val
    rw [h0, h1]; omega)
theorem rowform_apply {α : Type} (x : S2.Idx → α) (h : S32x1024.ShapeCasts S32x1x1024) (j : S32x1x1024.Idx) (b : Fin 32) (n : Fin 1024)
    (h0 : (j 0).val = b.val) (h2 : (j 2).val = n.val) : shapeCast S32x1x1024 x h j = x (ix2 b n) :=
  shapeCast_apply x h j (ix2 b n) (by
    rw [Shape.rowMajor_val_two, Shape.rowMajor_val_three]
    have h1 : (j 1).val < 1 := (j 1).isLt
    show b.val * 1024 + n.val = ((j 0).val * 1 + (j 1).val) * 1024 + (j 2).val
    rw [h0, h2]; omega)

/-- The column blocks of step `t`: entry `r` of the tile. -/
theorem col0_apply (c : Dev nD) (t : Fin cfg0.N) (r : Fin 512) :
    (iblk m c 0 t : Vec Ideal S1x512x1 .f32) (ix3 (0 : Fin 1) r (0 : Fin 1)) = argP m c (ix2 (rowB t) (rowOf (tileB t) r)) := by
  obtain ⟨e0, e1, e2, -⟩ := idx_col t
  unfold iblk
  rw [View.read_apply]
  show V m c main_v1 (((cfg0.win 0).blk t).view.emb (ix3 (0 : Fin 1) r (0 : Fin 1))) = _
  rw [V_v1]
  refine colform_apply _ _ _ _ _ ?_ ?_
  · show win0_0.index t (0 : Fin 3) * 1 + 1 * 0 = t.val / 2
    rw [e0]; omega
  · show win0_0.index t (1 : Fin 3) * 512 + 1 * r.val = t.val % 2 * 512 + r.val
    rw [e1]; omega

theorem col1_apply (c : Dev nD) (t : Fin cfg0.N) (r : Fin 512) :
    (iblk m c 1 t : Vec Ideal S1x512x1 .f32) (ix3 (0 : Fin 1) r (0 : Fin 1)) = argT m c (ix2 (rowB t) (rowOf (tileB t) r)) := by
  obtain ⟨-, -, -, e0, e1, e2, -⟩ := idx_col t
  unfold iblk
  rw [View.read_apply]
  show V m c main_v2 (((cfg0.win 1).blk t).view.emb (ix3 (0 : Fin 1) r (0 : Fin 1))) = _
  rw [V_v2]
  refine colform_apply _ _ _ _ _ ?_ ?_
  · show win0_1.index t (0 : Fin 3) * 1 + 1 * 0 = t.val / 2
    rw [e0]; omega
  · show win0_1.index t (1 : Fin 3) * 512 + 1 * r.val = t.val % 2 * 512 + r.val
    rw [e1]; omega

theorem col2_apply (c : Dev nD) (t : Fin cfg0.N) (r : Fin 512) :
    (iblk m c 2 t : Vec Ideal S1x512x1 .f32) (ix3 (0 : Fin 1) r (0 : Fin 1)) = maskf (argM m c) (ix2 (rowB t) (rowOf (tileB t) r)) := by
  obtain ⟨-, -, -, -, -, -, e0, e1, e2⟩ := idx_col t
  unfold iblk
  rw [View.read_apply]
  show V m c main_v3 (((cfg0.win 2).blk t).view.emb (ix3 (0 : Fin 1) r (0 : Fin 1))) = _
  rw [V_v3]
  refine colform_apply _ _ _ _ _ ?_ ?_
  · show win0_2.index t (0 : Fin 3) * 1 + 1 * 0 = t.val / 2
    rw [e0]; omega
  · show win0_2.index t (1 : Fin 3) * 512 + 1 * r.val = t.val % 2 * 512 + r.val
    rw [e1]; omega

theorem row3_apply (c : Dev nD) (t : Fin cfg0.N) (j : Fin 1024) :
    (iblk m c 3 t : Vec Ideal S1x1x1024 .f32) (ix3 (0 : Fin 1) (0 : Fin 1) j) = argP m c (ix2 (rowB t) j) := by
  obtain ⟨e0, e1, e2, -⟩ := idx_row t
  unfold iblk
  rw [View.read_apply]
  show V m c main_v4 (((cfg0.win 3).blk t).view.emb (ix3 (0 : Fin 1) (0 : Fin 1) j)) = _
  rw [V_v4]
  refine rowform_apply _ _ _ _ _ ?_ ?_
  · show win0_3.index t (0 : Fin 3) * 1 + 1 * 0 = t.val / 2
    rw [e0]; omega
  · show win0_3.index t (2 : Fin 3) * 1024 + 1 * j.val = j.val
    rw [e2]; omega

theorem row4_apply (c : Dev nD) (t : Fin cfg0.N) (j : Fin 1024) :
    (iblk m c 4 t : Vec Ideal S1x1x1024 .f32) (ix3 (0 : Fin 1) (0 : Fin 1) j) = argT m c (ix2 (rowB t) j) := by
  obtain ⟨-, -, -, e0, e1, e2, -⟩ := idx_row t
  unfold iblk
  rw [View.read_apply]
  show V m c main_v5 (((cfg0.win 4).blk t).view.emb (ix3 (0 : Fin 1) (0 : Fin 1) j)) = _
  rw [V_v5]
  refine rowform_apply _ _ _ _ _ ?_ ?_
  · show win0_4.index t (0 : Fin 3) * 1 + 1 * 0 = t.val / 2
    rw [e0]; omega
  · show win0_4.index t (2 : Fin 3) * 1024 + 1 * j.val = j.val
    rw [e2]; omega

theorem row5_apply (c : Dev nD) (t : Fin cfg0.N) (j : Fin 1024) :
    (iblk m c 5 t : Vec Ideal S1x1x1024 .f32) (ix3 (0 : Fin 1) (0 : Fin 1) j) = maskf (argM m c) (ix2 (rowB t) j) := by
  obtain ⟨-, -, -, -, -, -, e0, e1, e2⟩ := idx_row t
  unfold iblk
  rw [View.read_apply]
  show V m c main_v6 (((cfg0.win 5).blk t).view.emb (ix3 (0 : Fin 1) (0 : Fin 1) j)) = _
  rw [V_v6]
  refine rowform_apply _ _ _ _ _ ?_ ?_
  · show win0_5.index t (0 : Fin 3) * 1 + 1 * 0 = t.val / 2
    rw [e0]; omega
  · show win0_5.index t (2 : Fin 3) * 1024 + 1 * j.val = j.val
    rw [e2]; omega

end Cert.KernelIdeal.Arrays

end
-- ==== Proof.KernelTiles.lean ====
import proofs.«128812_j19121194402346_2_alg».proof.Proof.KernelArrays

/-! # A step's four scalars are the tile sums of the loss

Reading each input block of step `t` as entries of the argument arrays turns the body's four sums into the sums, over
tile `t % 2` of batch row `t / 2`, of the masked Huber terms, the mask values, the pair terms against the whole row
and the pairs' validity factors. -/

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.KernelIdeal.Payloads Cert.KernelIdeal.Steps Cert.RankLoss

variable (m : (ℓ : Loc nD τ sig) → Buf (Elt Ideal) ℓ)

/-- The step's scalars are the tile sums of the loss over the argument arrays. -/
theorem s6_eq (c : Dev nD) (t : Fin cfg0.N) : s6 m c t = tileHub (argP m c) (argT m c) (argM m c) (rowB t) (tileB t) := by
  unfold s6 tileHub
  refine (pay13_apply (iblk m c 0 t) (iblk m c 1 t) (iblk m c 2 t) (ix2 (0 : Fin 1) (0 : Fin 1))).trans (Finset.sum_congr rfl fun r _ => ?_)
  exact congr (congr (congrArg hubf (col0_apply m c t r)) (col1_apply m c t r)) (col2_apply m c t r)

theorem s7_eq (c : Dev nD) (t : Fin cfg0.N) : s7 m c t = tileMask (argM m c) (rowB t) (tileB t) := by
  unfold s7 tileMask
  refine (pay14_apply (iblk m c 2 t) (ix1 (0 : Fin 1))).trans (Finset.sum_congr rfl fun r _ => ?_)
  exact col2_apply m c t r

theorem s8_eq (c : Dev nD) (t : Fin cfg0.N) : s8 m c t = tilePair (argP m c) (argT m c) (argM m c) (rowB t) (tileB t) := by
  unfold s8 tilePair
  refine (pay16_apply (k0_pay7 (iblk m c 0 t)) (k0_pay8 (iblk m c 1 t)) (k0_pay9 (iblk m c 2 t)) (k0_pay10 (iblk m c 3 t))
    (k0_pay11 (iblk m c 4 t)) (k0_pay12 (iblk m c 5 t)) (ix2 (0 : Fin 1) (0 : Fin 1))).trans
    (Finset.sum_congr rfl fun r _ => Finset.sum_congr rfl fun j _ => ?_)
  exact congr (congr (congr (congr (congr (congrArg pairK ((pay7_apply (iblk m c 0 t) r).trans (col0_apply m c t r)))
    ((pay10_apply (iblk m c 3 t) j).trans (row3_apply m c t j))) ((pay8_apply (iblk m c 1 t) r).trans (col1_apply m c t r)))
    ((pay11_apply (iblk m c 4 t) j).trans (row4_apply m c t j))) ((pay9_apply (iblk m c 2 t) r).trans (col2_apply m c t r)))
    ((pay12_apply (iblk m c 5 t) j).trans (row5_apply m c t j))

theorem s9_eq (c : Dev nD) (t : Fin cfg0.N) : s9 m c t = tileValid (argT m c) (argM m c) (rowB t) (tileB t) := by
  unfold s9 tileValid
  refine (pay17_apply (k0_pay8 (iblk m c 1 t)) (k0_pay9 (iblk m c 2 t)) (k0_pay11 (iblk m c 4 t)) (k0_pay12 (iblk m c 5 t))
    (ix2 (0 : Fin 1) (0 : Fin 1))).trans (Finset.sum_congr rfl fun r _ => Finset.sum_congr rfl fun j _ => ?_)
  exact congr (congr (congr (congrArg validK ((pay8_apply (iblk m c 1 t) r).trans (col1_apply m c t r)))
    ((pay11_apply (iblk m c 4 t) j).trans (row4_apply m c t j))) ((pay9_apply (iblk m c 2 t) r).trans (col2_apply m c t r)))
    ((pay12_apply (iblk m c 5 t) j).trans (row5_apply m c t j))

end Cert.KernelIdeal.Arrays

end
-- ==== Proof.KernelFinal.lean ====
import proofs.«128812_j19121194402346_2_alg».proof.Proof.KernelTiles

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.KernelIdeal.Payloads Cert.KernelIdeal.Steps Cert.RankLoss

variable (m : (ℓ : Loc nD τ sig) → Buf (Elt Ideal) ℓ)

/-! # The four output arrays after the launch

Each `[32, 1, 128]` output array is written back once per batch row, by the odd step of that row, whose accumulator
block then holds the row's two tile sums added from zero on every lane. -/

/-- An output array's contents: at batch row `b`, on every lane, the row's two tiles added from zero. -/
def rowAcc (f : Fin 32 → Fin 2 → EReal) : S32x1x128.Idx → EReal := fun i => (0 + f (i 0) 0) + f (i 0) 1

theorem rowAcc_apply (f : Fin 32 → Fin 2 → EReal) (b : Fin 32) (u : Fin 1) (l : Fin 128) :
    rowAcc f (ix3 b u l) = (0 + f b 0) + f b 1 := rfl

/-- The outputs' block indices, one window at a time. -/
theorem idx_out6 (t : Fin cfg0.N) : win0_6.index t (0 : Fin 3) = t.val / 2 ∧ win0_6.index t (1 : Fin 3) = 0 ∧ win0_6.index t (2 : Fin 3) = 0 :=
  ⟨(idx_out t).1, (idx_out t).2.1, (idx_out t).2.2.1⟩
theorem idx_out7 (t : Fin cfg0.N) : win0_7.index t (0 : Fin 3) = t.val / 2 ∧ win0_7.index t (1 : Fin 3) = 0 ∧ win0_7.index t (2 : Fin 3) = 0 :=
  ⟨(idx_out t).2.2.2.1, (idx_out t).2.2.2.2.1, (idx_out t).2.2.2.2.2.1⟩
theorem idx_out8 (t : Fin cfg0.N) : win0_8.index t (0 : Fin 3) = t.val / 2 ∧ win0_8.index t (1 : Fin 3) = 0 ∧ win0_8.index t (2 : Fin 3) = 0 :=
  ⟨(idx_out t).2.2.2.2.2.2.1, (idx_out t).2.2.2.2.2.2.2.1, (idx_out t).2.2.2.2.2.2.2.2.1⟩
theorem idx_out9 (t : Fin cfg0.N) : win0_9.index t (0 : Fin 3) = t.val / 2 ∧ win0_9.index t (1 : Fin 3) = 0 ∧ win0_9.index t (2 : Fin 3) = 0 :=
  ⟨(idx_out t).2.2.2.2.2.2.2.2.2.1, (idx_out t).2.2.2.2.2.2.2.2.2.2.1, (idx_out t).2.2.2.2.2.2.2.2.2.2.2⟩

/-- The step before an odd step is the first tile of the same batch row. -/
theorem prev_row (t : Fin cfg0.N) (h0 : ¬t.val % 2 = 0) (h : t.val - 1 < cfg0.N) : rowB ⟨t.val - 1, h⟩ = rowB t :=
  Fin.ext (by show (t.val - 1) / 2 = t.val / 2; omega)
theorem prev_tile (t : Fin cfg0.N) (h0 : ¬t.val % 2 = 0) (h : t.val - 1 < cfg0.N) : tileB ⟨t.val - 1, h⟩ = 0 :=
  Fin.ext (by show (t.val - 1) % 2 = 0; omega)
theorem odd_tile (t : Fin cfg0.N) (h0 : ¬t.val % 2 = 0) : tileB t = 1 :=
  Fin.ext (by show t.val % 2 = 1; omega)

/-- After the odd step of batch row `b`, accumulator 6 holds the row's two tile sums added from zero. -/
theorem acc6_eq (c : Dev nD) (t : Fin cfg0.N) (hodd : ¬t.val % 2 = 0) (y : S1x1x128.Idx) :
    (outsAt0 m c t.val t.isLt).1 y = (0 + tileHub (argP m c) (argT m c) (argM m c) (rowB t) 0) + tileHub (argP m c) (argT m c) (argM m c) (rowB t) 1 := by
  rw [pair_6 m c t hodd y, s6_eq, s6_eq, prev_row t hodd, prev_tile t hodd, odd_tile t hodd]

/-- An odd step whose accumulator 6 holds a row's two tile sums added from zero writes back that row's block of the
    row-accumulated array. -/
theorem flushed6_gen (f : Fin 32 → Fin 2 → EReal) (c : Dev nD) (t : Fin cfg0.N)
    (key : ∀ y : S1x1x128.Idx, (outsAt0 m c t.val t.isLt).1 y = (0 + f (rowB t) 0) + f (rowB t) 1) :
    (dats m 0 c).flushed 6 t = ((cfg0.win 6).blk t).view.read (Elt Ideal) (rowAcc f) := by
  obtain ⟨e0, e1, e2⟩ := idx_out6 t
  show (cfg0.win 6).cut (grid0.coords t) ((dats m 0 c).after 6 t) = _
  rw [after0_6]
  funext y
  show (outsAt0 m c t.val t.isLt).1 y = rowAcc f (((cfg0.win 6).blk t).view.emb y)
  refine (key y).trans ?_
  have hb : (((cfg0.win 6).blk t).view.emb y) 0 = rowB t := Fin.ext (by
    have hy : (y 0).val < 1 := (y 0).isLt
    show win0_6.index t (0 : Fin 3) * 1 + 1 * (y 0).val = t.val / 2
    rw [e0]; omega)
  show _ = (0 + f ((((cfg0.win 6).blk t).view.emb y) 0) 0) + f ((((cfg0.win 6).blk t).view.emb y) 0) 1
  rw [hb]

/-- What an odd step writes back for output 6 is its block of the row-accumulated array. -/
theorem flushed6_eq (c : Dev nD) (t : Fin cfg0.N) (hf : (cfg0.win 6).flush t = true) :
    (dats m 0 c).flushed 6 t = ((cfg0.win 6).blk t).view.read (Elt Ideal) (rowAcc (tileHub (argP m c) (argT m c) (argM m c))) :=
  flushed6_gen m (tileHub (argP m c) (argT m c) (argM m c)) c t (acc6_eq m c t (by have := (flush0_6 t).mp hf; omega))

/-- Every entry of output 6 is in the block the odd step of its batch row writes back. -/
theorem cover6 (i : S32x1x128.Idx) : ∃ t : Fin cfg0.N, (cfg0.win 6).flush t = true ∧ i ∈ ((cfg0.win 6).blk t).view.set := by
  have hN : cfg0.N = 64 := N_0
  have h0 : (i 0).val < 32 := (i 0).isLt
  have h1 : (i 1).val < 1 := (i 1).isLt
  have h2 : (i 2).val < 128 := (i 2).isLt
  obtain ⟨t, ht⟩ : ∃ t : Fin cfg0.N, t.val = 2 * (i 0).val + 1 := ⟨⟨2 * (i 0).val + 1, by omega⟩, rfl⟩
  obtain ⟨e0, e1, e2⟩ := idx_out6 t
  refine ⟨t, (flush0_6 t).mpr (by omega), ?_⟩
  show i ∈ ((View.whole main_v7_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1
              rw [e0]; omega
  | ⟨1, _⟩ => show win0_6.index t (1 : Fin 3) * 1 ≤ (i 1).val ∧ (i 1).val < win0_6.index t (1 : Fin 3) * 1 + 1
              rw [e1]; omega
  | ⟨2, _⟩ => show win0_6.index t (2 : Fin 3) * 128 ≤ (i 2).val ∧ (i 2).val < win0_6.index t (2 : Fin 3) * 128 + 128
              rw [e2]; omega

/-- So output 6 ends as the row-accumulated array. -/
theorem final6 (c : Dev nD) : (dats m 0 c).arrAt 6 cfg0.N = rowAcc (tileHub (argP m c) (argT m c) (argM m c)) :=
  (dats m 0 c).arrAt_eq_of_cover 6 (rowAcc (tileHub (argP m c) (argT m c) (argM m c))) (flushed6_eq m c) cover6

/-- After the odd step of batch row `b`, accumulator 7 holds the row's two tile sums added from zero. -/
theorem acc7_eq (c : Dev nD) (t : Fin cfg0.N) (hodd : ¬t.val % 2 = 0) (y : S1x1x128.Idx) :
    (outsAt0 m c t.val t.isLt).2.1 y = (0 + tileMask (argM m c) (rowB t) 0) + tileMask (argM m c) (rowB t) 1 := by
  rw [pair_7 m c t hodd y, s7_eq, s7_eq, prev_row t hodd, prev_tile t hodd, odd_tile t hodd]

/-- An odd step whose accumulator 7 holds a row's two tile sums added from zero writes back that row's block of the
    row-accumulated array. -/
theorem flushed7_gen (f : Fin 32 → Fin 2 → EReal) (c : Dev nD) (t : Fin cfg0.N)
    (key : ∀ y : S1x1x128.Idx, (outsAt0 m c t.val t.isLt).2.1 y = (0 + f (rowB t) 0) + f (rowB t) 1) :
    (dats m 0 c).flushed 7 t = ((cfg0.win 7).blk t).view.read (Elt Ideal) (rowAcc f) := by
  obtain ⟨e0, e1, e2⟩ := idx_out7 t
  show (cfg0.win 7).cut (grid0.coords t) ((dats m 0 c).after 7 t) = _
  rw [after0_7]
  funext y
  show (outsAt0 m c t.val t.isLt).2.1 y = rowAcc f (((cfg0.win 7).blk t).view.emb y)
  refine (key y).trans ?_
  have hb : (((cfg0.win 7).blk t).view.emb y) 0 = rowB t := Fin.ext (by
    have hy : (y 0).val < 1 := (y 0).isLt
    show win0_7.index t (0 : Fin 3) * 1 + 1 * (y 0).val = t.val / 2
    rw [e0]; omega)
  show _ = (0 + f ((((cfg0.win 7).blk t).view.emb y) 0) 0) + f ((((cfg0.win 7).blk t).view.emb y) 0) 1
  rw [hb]

/-- What an odd step writes back for output 7 is its block of the row-accumulated array. -/
theorem flushed7_eq (c : Dev nD) (t : Fin cfg0.N) (hf : (cfg0.win 7).flush t = true) :
    (dats m 0 c).flushed 7 t = ((cfg0.win 7).blk t).view.read (Elt Ideal) (rowAcc (tileMask (argM m c))) :=
  flushed7_gen m (tileMask (argM m c)) c t (acc7_eq m c t (by have := (flush0_7 t).mp hf; omega))

/-- Every entry of output 7 is in the block the odd step of its batch row writes back. -/
theorem cover7 (i : S32x1x128.Idx) : ∃ t : Fin cfg0.N, (cfg0.win 7).flush t = true ∧ i ∈ ((cfg0.win 7).blk t).view.set := by
  have hN : cfg0.N = 64 := N_0
  have h0 : (i 0).val < 32 := (i 0).isLt
  have h1 : (i 1).val < 1 := (i 1).isLt
  have h2 : (i 2).val < 128 := (i 2).isLt
  obtain ⟨t, ht⟩ : ∃ t : Fin cfg0.N, t.val = 2 * (i 0).val + 1 := ⟨⟨2 * (i 0).val + 1, by omega⟩, rfl⟩
  obtain ⟨e0, e1, e2⟩ := idx_out7 t
  refine ⟨t, (flush0_7 t).mpr (by omega), ?_⟩
  show i ∈ ((View.whole main_v7_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1
              rw [e0]; omega
  | ⟨1, _⟩ => show win0_7.index t (1 : Fin 3) * 1 ≤ (i 1).val ∧ (i 1).val < win0_7.index t (1 : Fin 3) * 1 + 1
              rw [e1]; omega
  | ⟨2, _⟩ => show win0_7.index t (2 : Fin 3) * 128 ≤ (i 2).val ∧ (i 2).val < win0_7.index t (2 : Fin 3) * 128 + 128
              rw [e2]; omega

/-- So output 7 ends as the row-accumulated array. -/
theorem final7 (c : Dev nD) : (dats m 0 c).arrAt 7 cfg0.N = rowAcc (tileMask (argM m c)) :=
  (dats m 0 c).arrAt_eq_of_cover 7 (rowAcc (tileMask (argM m c))) (flushed7_eq m c) cover7

/-- After the odd step of batch row `b`, accumulator 8 holds the row's two tile sums added from zero. -/
theorem acc8_eq (c : Dev nD) (t : Fin cfg0.N) (hodd : ¬t.val % 2 = 0) (y : S1x1x128.Idx) :
    (outsAt0 m c t.val t.isLt).2.2.1 y = (0 + tilePair (argP m c) (argT m c) (argM m c) (rowB t) 0) + tilePair (argP m c) (argT m c) (argM m c) (rowB t) 1 := by
  rw [pair_8 m c t hodd y, s8_eq, s8_eq, prev_row t hodd, prev_tile t hodd, odd_tile t hodd]

/-- An odd step whose accumulator 8 holds a row's two tile sums added from zero writes back that row's block of the
    row-accumulated array. -/
theorem flushed8_gen (f : Fin 32 → Fin 2 → EReal) (c : Dev nD) (t : Fin cfg0.N)
    (key : ∀ y : S1x1x128.Idx, (outsAt0 m c t.val t.isLt).2.2.1 y = (0 + f (rowB t) 0) + f (rowB t) 1) :
    (dats m 0 c).flushed 8 t = ((cfg0.win 8).blk t).view.read (Elt Ideal) (rowAcc f) := by
  obtain ⟨e0, e1, e2⟩ := idx_out8 t
  show (cfg0.win 8).cut (grid0.coords t) ((dats m 0 c).after 8 t) = _
  rw [after0_8]
  funext y
  show (outsAt0 m c t.val t.isLt).2.2.1 y = rowAcc f (((cfg0.win 8).blk t).view.emb y)
  refine (key y).trans ?_
  have hb : (((cfg0.win 8).blk t).view.emb y) 0 = rowB t := Fin.ext (by
    have hy : (y 0).val < 1 := (y 0).isLt
    show win0_8.index t (0 : Fin 3) * 1 + 1 * (y 0).val = t.val / 2
    rw [e0]; omega)
  show _ = (0 + f ((((cfg0.win 8).blk t).view.emb y) 0) 0) + f ((((cfg0.win 8).blk t).view.emb y) 0) 1
  rw [hb]

/-- What an odd step writes back for output 8 is its block of the row-accumulated array. -/
theorem flushed8_eq (c : Dev nD) (t : Fin cfg0.N) (hf : (cfg0.win 8).flush t = true) :
    (dats m 0 c).flushed 8 t = ((cfg0.win 8).blk t).view.read (Elt Ideal) (rowAcc (tilePair (argP m c) (argT m c) (argM m c))) :=
  flushed8_gen m (tilePair (argP m c) (argT m c) (argM m c)) c t (acc8_eq m c t (by have := (flush0_8 t).mp hf; omega))

/-- Every entry of output 8 is in the block the odd step of its batch row writes back. -/
theorem cover8 (i : S32x1x128.Idx) : ∃ t : Fin cfg0.N, (cfg0.win 8).flush t = true ∧ i ∈ ((cfg0.win 8).blk t).view.set := by
  have hN : cfg0.N = 64 := N_0
  have h0 : (i 0).val < 32 := (i 0).isLt
  have h1 : (i 1).val < 1 := (i 1).isLt
  have h2 : (i 2).val < 128 := (i 2).isLt
  obtain ⟨t, ht⟩ : ∃ t : Fin cfg0.N, t.val = 2 * (i 0).val + 1 := ⟨⟨2 * (i 0).val + 1, by omega⟩, rfl⟩
  obtain ⟨e0, e1, e2⟩ := idx_out8 t
  refine ⟨t, (flush0_8 t).mpr (by omega), ?_⟩
  show i ∈ ((View.whole main_v7_2).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1
              rw [e0]; omega
  | ⟨1, _⟩ => show win0_8.index t (1 : Fin 3) * 1 ≤ (i 1).val ∧ (i 1).val < win0_8.index t (1 : Fin 3) * 1 + 1
              rw [e1]; omega
  | ⟨2, _⟩ => show win0_8.index t (2 : Fin 3) * 128 ≤ (i 2).val ∧ (i 2).val < win0_8.index t (2 : Fin 3) * 128 + 128
              rw [e2]; omega

/-- So output 8 ends as the row-accumulated array. -/
theorem final8 (c : Dev nD) : (dats m 0 c).arrAt 8 cfg0.N = rowAcc (tilePair (argP m c) (argT m c) (argM m c)) :=
  (dats m 0 c).arrAt_eq_of_cover 8 (rowAcc (tilePair (argP m c) (argT m c) (argM m c))) (flushed8_eq m c) cover8

/-- After the odd step of batch row `b`, accumulator 9 holds the row's two tile sums added from zero. -/
theorem acc9_eq (c : Dev nD) (t : Fin cfg0.N) (hodd : ¬t.val % 2 = 0) (y : S1x1x128.Idx) :
    (outsAt0 m c t.val t.isLt).2.2.2 y = (0 + tileValid (argT m c) (argM m c) (rowB t) 0) + tileValid (argT m c) (argM m c) (rowB t) 1 := by
  rw [pair_9 m c t hodd y, s9_eq, s9_eq, prev_row t hodd, prev_tile t hodd, odd_tile t hodd]

/-- An odd step whose accumulator 9 holds a row's two tile sums added from zero writes back that row's block of the
    row-accumulated array. -/
theorem flushed9_gen (f : Fin 32 → Fin 2 → EReal) (c : Dev nD) (t : Fin cfg0.N)
    (key : ∀ y : S1x1x128.Idx, (outsAt0 m c t.val t.isLt).2.2.2 y = (0 + f (rowB t) 0) + f (rowB t) 1) :
    (dats m 0 c).flushed 9 t = ((cfg0.win 9).blk t).view.read (Elt Ideal) (rowAcc f) := by
  obtain ⟨e0, e1, e2⟩ := idx_out9 t
  show (cfg0.win 9).cut (grid0.coords t) ((dats m 0 c).after 9 t) = _
  rw [after0_9]
  funext y
  show (outsAt0 m c t.val t.isLt).2.2.2 y = rowAcc f (((cfg0.win 9).blk t).view.emb y)
  refine (key y).trans ?_
  have hb : (((cfg0.win 9).blk t).view.emb y) 0 = rowB t := Fin.ext (by
    have hy : (y 0).val < 1 := (y 0).isLt
    show win0_9.index t (0 : Fin 3) * 1 + 1 * (y 0).val = t.val / 2
    rw [e0]; omega)
  show _ = (0 + f ((((cfg0.win 9).blk t).view.emb y) 0) 0) + f ((((cfg0.win 9).blk t).view.emb y) 0) 1
  rw [hb]

/-- What an odd step writes back for output 9 is its block of the row-accumulated array. -/
theorem flushed9_eq (c : Dev nD) (t : Fin cfg0.N) (hf : (cfg0.win 9).flush t = true) :
    (dats m 0 c).flushed 9 t = ((cfg0.win 9).blk t).view.read (Elt Ideal) (rowAcc (tileValid (argT m c) (argM m c))) :=
  flushed9_gen m (tileValid (argT m c) (argM m c)) c t (acc9_eq m c t (by have := (flush0_9 t).mp hf; omega))

/-- Every entry of output 9 is in the block the odd step of its batch row writes back. -/
theorem cover9 (i : S32x1x128.Idx) : ∃ t : Fin cfg0.N, (cfg0.win 9).flush t = true ∧ i ∈ ((cfg0.win 9).blk t).view.set := by
  have hN : cfg0.N = 64 := N_0
  have h0 : (i 0).val < 32 := (i 0).isLt
  have h1 : (i 1).val < 1 := (i 1).isLt
  have h2 : (i 2).val < 128 := (i 2).isLt
  obtain ⟨t, ht⟩ : ∃ t : Fin cfg0.N, t.val = 2 * (i 0).val + 1 := ⟨⟨2 * (i 0).val + 1, by omega⟩, rfl⟩
  obtain ⟨e0, e1, e2⟩ := idx_out9 t
  refine ⟨t, (flush0_9 t).mpr (by omega), ?_⟩
  show i ∈ ((View.whole main_v7_3).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1
              rw [e0]; omega
  | ⟨1, _⟩ => show win0_9.index t (1 : Fin 3) * 1 ≤ (i 1).val ∧ (i 1).val < win0_9.index t (1 : Fin 3) * 1 + 1
              rw [e1]; omega
  | ⟨2, _⟩ => show win0_9.index t (2 : Fin 3) * 128 ≤ (i 2).val ∧ (i 2).val < win0_9.index t (2 : Fin 3) * 128 + 128
              rw [e2]; omega

/-- So output 9 ends as the row-accumulated array. -/
theorem final9 (c : Dev nD) : (dats m 0 c).arrAt 9 cfg0.N = rowAcc (tileValid (argT m c) (argM m c)) :=
  (dats m 0 c).arrAt_eq_of_cover 9 (rowAcc (tileValid (argT m c) (argM m c))) (flushed9_eq m c) cover9

end Cert.KernelIdeal.Arrays

end
-- ==== Proof.LibIndexSums.lean ====
import Idealize.ShloMosaic.Lib.ValueIdx

/-! # Sums over the index set of an array as iterated sums over its coordinates

The index set of a rank-1 array `[n]` is `Fin n` through `ix1`, and the index set of a rank-3 array `[n0, n1, n2]` is
`Fin n0 × Fin n1 × Fin n2` through `ix3`, so a sum over every index of the array is the sum over the coordinate, or
the triple sum over the three coordinates, and the array has `n0 · n1 · n2` indices. Generic in the extents and in the
commutative monoid summed in. (The rank-2 form is the library's `ValueIdx.sum_idx2`.) -/

noncomputable section

namespace Cert.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {A : Type*} [AddCommMonoid A] {n0 n1 n2 : Nat} (f : (⟨3, ![n0, n1, n2]⟩ : Shape).Idx → A) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-3 array has as many indices as the product of its extents. -/
theorem card_idx3 {n0 n1 n2 : Nat} : (Finset.univ : Finset (⟨3, ![n0, n1, n2]⟩ : Shape).Idx).card = n0 * (n1 * n2) := by
  rw [Finset.card_univ, Fintype.card_congr (idxEquiv3 (n0 := n0) (n1 := n1) (n2 := n2))]
  simp [Fintype.card_prod]

end Cert.IndexSums

end
-- ==== Proof.KernelTail.lean ====
import proofs.«128812_j19121194402346_2_alg».proof.Proof.KernelFinal
import proofs.«128812_j19121194402346_2_alg».proof.Proof.LibIndexSums

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.KernelIdeal.Payloads Cert.KernelIdeal.Steps Cert.RankLoss

variable (m : (ℓ : Loc nD τ sig) → Buf (Elt Ideal) ℓ)

/-! # The lines after the launch, and the kernel program's run

After the launch the program takes lane 0 of each `[32, 1, 128]` output, sums the 32 batch rows from zero, and
forms `huber / max (mask, 1) + ½ · (pair / max (count, 1))`. With each output the row-accumulated array, this is
the tiled arrangement of the loss. -/

/-- Lane 0 of an output array summed over the batch rows from zero, as the program writes it. -/
def laneSum (o : S32x1x128.Idx → EReal) : S_.Idx → EReal :=
  Host.reduceAdd (F := Ideal) (φ := .f32)
    (shapeCast S32 (extractStridedSlice S32x1x1 ![0, 0, 0] o slices_S32x1x128_S32x1x1_0_0_0) shapeCasts_S32x1x1_S32)
    (constant (F := Ideal) S_ .f32 0x00000000#32) reducesTo_S32_S_d0 h_S_

/-- The lines after the launch as one function of the four output arrays. -/
def tail (o6 o7 o8 o9 : S32x1x128.Idx → EReal) : S_.Idx → EReal :=
  (addf (Host.divf (F := Ideal) (φ := .f32) (laneSum o6) (maximumf (laneSum o7) (constant (F := Ideal) S_ .f32 0x3F800000#32)))
    (mulf (constant (F := Ideal) S_ .f32 0x3F000000#32)
      (Host.divf (F := Ideal) (φ := .f32) (laneSum o8) (maximumf (laneSum o9) (constant (F := Ideal) S_ .f32 0x3F800000#32)))) : FVec Ideal S_ .f32)

set_option maxHeartbeats 4000000 in
/-- Whatever the buffers hold when the launch returns, the program's result is `tail` of the four output arrays. -/
theorem tail_after (W : Valuation τ sig (Elt Ideal)) :
    (StableHlo.after (hostOps1 (F := Ideal)) W (Proc.devRef .tc main_v25) : S_.Idx → EReal)
      = tail (W (Proc.devRef .tc main_v7_0)) (W (Proc.devRef .tc main_v7_1)) (W (Proc.devRef .tc main_v7_2)) (W (Proc.devRef .tc main_v7_3)) := by
  after_results
  rfl

/-- Lane 0 of the row-accumulated array summed over the rows is the tiled total. -/
theorem laneSum_rowAcc (f : Fin 32 → Fin 2 → EReal) (i : S_.Idx) : laneSum (rowAcc f) i = tiledTotal f := by
  unfold laneSum
  show _ = z0 + ∑ b : Fin 32, ((0 + f b 0) + f b 1)
  refine (Ideal.hostReduceAdd_total reducesTo_S32_S_d0 (fun b => b.elim0) _ _ i).trans ?_
  refine congrArg (z0 + ·) ((Cert.IndexSums.sum_idx1 _).trans (Finset.sum_congr rfl fun b _ => ?_))
  refine (shapeCast_apply _ _ (ix1 b) (ix3 b (0 : Fin 1) (0 : Fin 1)) ?_).trans ?_
  · rw [Shape.rowMajor_val_one, Shape.rowMajor_val_three]
    show (b.val * 1 + 0) * 1 + 0 = b.val
    omega
  · refine (extractStridedSlice_apply _ _ _ (ix3 b (0 : Fin 1) (0 : Fin 1)) (ix3 b (0 : Fin 1) (0 : Fin 128)) fun a => ?_).trans (rowAcc_apply f b 0 0)
    match a with
    | ⟨0, _⟩ => show b.val = 0 + b.val; omega
    | ⟨1, _⟩ => rfl
    | ⟨2, _⟩ => rfl

/-- `tail` entry by entry: the loss combined from the four lane sums. -/
theorem tail_apply (o6 o7 o8 o9 : S32x1x128.Idx → EReal) (i : S_.Idx) :
    tail o6 o7 o8 o9 i = combine (laneSum o6 i) (laneSum o7 i) (laneSum o8 i) (FloatOps.maximumf (F := Ideal) (φ := .f32) (laneSum o9 i) one) := rfl

/-- If the four output arrays are row-accumulated, the program's result is the loss combined from the tiled totals. -/
theorem result_of (W : Valuation τ sig (Elt Ideal)) (f6 f7 f8 f9 : Fin 32 → Fin 2 → EReal)
    (h6 : (W (Proc.devRef .tc main_v7_0) : S32x1x128.Idx → EReal) = rowAcc f6) (h7 : (W (Proc.devRef .tc main_v7_1) : S32x1x128.Idx → EReal) = rowAcc f7)
    (h8 : (W (Proc.devRef .tc main_v7_2) : S32x1x128.Idx → EReal) = rowAcc f8) (h9 : (W (Proc.devRef .tc main_v7_3) : S32x1x128.Idx → EReal) = rowAcc f9) :
    (StableHlo.after (hostOps1 (F := Ideal)) W (Proc.devRef .tc main_v25) : S_.Idx → EReal)
      = fun _ => combine (tiledTotal f6) (tiledTotal f7) (tiledTotal f8) (FloatOps.maximumf (F := Ideal) (φ := .f32) (tiledTotal f9) one) := by
  rw [tail_after, h6, h7, h8, h9]
  funext i
  rw [tail_apply, laneSum_rowAcc, laneSum_rowAcc, laneSum_rowAcc, laneSum_rowAcc]

end Cert.KernelIdeal.Arrays

end
-- ==== Proof.KernelRun.lean ====
import proofs.«128812_j19121194402346_2_alg».proof.Proof.KernelTail

noncomputable section

open Idealize.ShloMosaic Idealize.ShloMosaic.TcCoe Idealize.SL.Sem
open Idealize.ShloMosaic.Pipeline (Dat)

namespace Cert.KernelIdeal.Arrays

open Idealize.ShloMosaic.ValueIdx Cert.KernelIdeal Cert.KernelIdeal.Gen Cert.KernelIdeal.Payloads Cert.KernelIdeal.Steps Cert.RankLoss

variable (m : (ℓ : Loc nD τ sig) → Buf (Elt Ideal) ℓ)

/-! # The kernel program's run -/

/-- The program's result buffer after the run. -/
theorem result_eq (c : Dev nD) :
    (Pipeline.afterTail₀ cfgs (dats m) 0 (V0 m) [hostOps1] c main_v25 : S_.Idx → EReal)
      = fun _ => tiledLoss (argP m c) (argT m c) (argM m c) := by
  unfold Pipeline.afterTail₀
  exact result_of _ _ _ _ _
    ((Pipeline.withArrays_arr spec0 launch0.win.arr_inj c (V0 m c) (fun w => (dats m 0 c).arrAt w (cfgs 0).N) 6).trans (final6 m c))
    ((Pipeline.withArrays_arr spec0 launch0.win.arr_inj c (V0 m c) (fun w => (dats m 0 c).arrAt w (cfgs 0).N) 7).trans (final7 m c))
    ((Pipeline.withArrays_arr spec0 launch0.win.arr_inj c (V0 m c) (fun w => (dats m 0 c).arrAt w (cfgs 0).N) 8).trans (final8 m c))
    ((Pipeline.withArrays_arr spec0 launch0.win.arr_inj c (V0 m c) (fun w => (dats m 0 c).arrAt w (cfgs 0).N) 9).trans (final9 m c))
/-- THE RUN of the idealized kernel program: every weakly fair execution terminates with the result buffer at the
    tiled arrangement of the loss of the arguments, and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v25) = (fun _ => tiledLoss (argP m c) (argT m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.RefValue.lean ====
import proofs.«128812_j19121194402346_2_alg».proof.Proof.Gen.ReferenceIdeal.Read
import proofs.«128812_j19121194402346_2_alg».proof.Proof.Loss

/-! # The reference computes the flat arrangement of the loss

Stage by stage, read at an index: the masked Huber term of each entry; for each triple `(b, i, j)` the pair's
validity bit (both mask bits and `t j - t i > 0`) and the selected term `max (-(p j - p i)) 0`; the float sums over
all entries and all triples from zero; the 32-bit sum of the widened validity bits from zero, clamped below at one
and made a float; the two quotients, half the second added to the first. -/

noncomputable section

namespace Cert.ReferenceIdeal.RefValue

open Idealize.ShloMosaic Idealize.ShloMosaic.ValueIdx Cert.ReferenceIdeal Cert.ReferenceIdeal.Gen Cert.ReferenceIdeal.Read Cert.RankLoss

variable (x0 x1 : S32x1024.Idx → EReal) (x2 : S32x1024.Idx → BitVec 1)

/-- The broadcasts `[32, 1024] → [32, 1, 1024] → [32, 1024, 1024]` read entry `j` of the batch row, and
    `[32, 1024] → [32, 1024, 1] → [32, 1024, 1024]` entry `i`. -/
theorem idx_tj (q : S32x1024x1024.Idx) : idx_main_v18 (idx_main_v20 q) = ix2 (q 0) (q 2) :=
  funext fun a => Fin.ext (by match a with | ⟨0, _⟩ => rfl | ⟨1, _⟩ => rfl)
theorem idx_ti (q : S32x1024x1024.Idx) : idx_main_v19 (idx_main_v21 q) = ix2 (q 0) (q 1) :=
  funext fun a => Fin.ext (by match a with | ⟨0, _⟩ => rfl | ⟨1, _⟩ => rfl)
theorem idx_pj (q : S32x1024x1024.Idx) : idx_main_v23 (idx_main_v25 q) = ix2 (q 0) (q 2) :=
  funext fun a => Fin.ext (by match a with | ⟨0, _⟩ => rfl | ⟨1, _⟩ => rfl)
theorem idx_pi (q : S32x1024x1024.Idx) : idx_main_v24 (idx_main_v26 q) = ix2 (q 0) (q 1) :=
  funext fun a => Fin.ext (by match a with | ⟨0, _⟩ => rfl | ⟨1, _⟩ => rfl)
theorem idx_mj (q : S32x1024x1024.Idx) : idx_main_v28 (idx_main_v30 q) = ix2 (q 0) (q 2) :=
  funext fun a => Fin.ext (by match a with | ⟨0, _⟩ => rfl | ⟨1, _⟩ => rfl)
theorem idx_mi (q : S32x1024x1024.Idx) : idx_main_v29 (idx_main_v31 q) = ix2 (q 0) (q 1) :=
  funext fun a => Fin.ext (by match a with | ⟨0, _⟩ => rfl | ⟨1, _⟩ => rfl)

/-- The masked Huber term of entry `i`. -/
theorem hub_at (i : S32x1024.Idx) : val_main_v13 (F := Ideal) x0 x1 x2 i = hubf (x0 i) (x1 i) (maskf x2 i) := by
  simp only [val_main_v13_apply, val_main_v12_apply, val_main_v4_apply, val_main_v2_apply, val_main_v1_apply, val_main_v3_apply,
    val_main_cst_apply, val_main_v7_apply, val_main_v6_apply, val_main_v5_apply, val_main_cst_0_apply, val_main_v11_apply,
    val_main_v10_apply, val_main_cst_2_apply, val_main_v9_apply, val_main_v8_apply, val_main_cst_1_apply, val_main_v0_apply]
  rfl

/-- The mask value of entry `i`. -/
theorem mask_at (i : S32x1024.Idx) : val_main_v0 (F := Ideal) x2 i = maskf x2 i := rfl

/-- The validity bit of the triple `q`. -/
theorem cond_at (q : S32x1024x1024.Idx) : val_main_v35 (F := Ideal) x1 x2 q = condAt x1 x2 q := by
  simp only [val_main_v35_apply, val_main_v32_apply, val_main_v30_apply, val_main_v28_apply, val_main_v31_apply, val_main_v29_apply,
    val_main_v34_apply, val_main_v22_apply, val_main_v20_apply, val_main_v18_apply, val_main_v21_apply, val_main_v19_apply,
    val_main_v33_apply, val_main_cst_6_apply, idx_tj, idx_ti, idx_mj, idx_mi]
  rfl

/-- The selected pair term of the triple `q`. -/
theorem pair_at (q : S32x1024x1024.Idx) : val_main_v38 (F := Ideal) x0 x1 x2 q = pairAt x0 x1 x2 q := by
  rw [val_main_v38_apply, cond_at]
  simp only [val_main_v37_apply, val_main_v36_apply, val_main_v27_apply, val_main_v25_apply, val_main_v23_apply, val_main_v26_apply,
    val_main_v24_apply, val_main_call1_v0_apply, val_main_call1_cst_apply, val_main_call2_v0_apply, val_main_cst_7_apply, idx_pj, idx_pi]
  rfl

/-- The 32-bit count of valid pairs. -/
theorem count_at (i : S_.Idx) : val_main_v40 (F := Ideal) x1 x2 i = countBits x1 x2 := by
  unfold val_main_v40
  rw [Host.reduce_eq_fold]
  have hall : (Finset.univ.filter fun q : S32x1024x1024.Idx => reducesTo_S32x1024x1024_S_d0_1_2.drop q = i) = Finset.univ :=
    Finset.filter_true_of_mem fun q _ => funext fun b => b.elim0
  rw [hall]
  unfold countBits
  refine Finset.fold_congr fun q _ => ?_
  rw [val_main_v39_apply, cond_at]

/-- The reference's result is the flat arrangement of the loss of its arguments. -/
theorem result_eq (i : S_.Idx) : val_main_v46 (F := Ideal) x0 x1 x2 i = flatLoss x0 x1 x2 := by
  rw [val_main_v46_apply, val_main_v17_apply, val_main_v14_apply, val_main_v16_apply, val_main_v15_apply, val_main_v45_apply,
    val_main_v44_apply, val_main_v41_apply, val_main_v43_apply, val_main_v42_apply, count_at]
  simp only [hub_at, mask_at, pair_at]
  rfl

end Cert.ReferenceIdeal.RefValue

end
-- ==== Proof.LossLaw.lean ====
import proofs.«128812_j19121194402346_2_alg».proof.Proof.Loss
import proofs.«128812_j19121194402346_2_alg».proof.Proof.LibIndexSums

/-! # The two arrangements of the loss agree on finite predictions -/

noncomputable section

namespace Cert.RankLoss

open Idealize.ShloMosaic Idealize.ShloMosaic.ValueIdx Cert.IndexSums

/-- A sum over the 1024 entries of a row is the sum over its two tiles of 512. -/
theorem sum_tiles (h : Fin 1024 → EReal) : (0 + ∑ r : Fin 512, h (rowOf 0 r)) + ∑ r : Fin 512, h (rowOf 1 r) = ∑ n : Fin 1024, h n := by
  rw [zero_add]
  have e := Fin.sum_univ_add (a := 512) (b := 512) (fun i : Fin (512 + 512) => h i)
  refine Eq.trans ?_ e.symm
  refine congr (congrArg HAdd.hAdd (Finset.sum_congr rfl fun r _ => congrArg h (Fin.ext ?_))) (Finset.sum_congr rfl fun r _ => congrArg h (Fin.ext ?_))
  · show 0 * 512 + r.val = r.val
    omega
  · show 1 * 512 + r.val = 512 + r.val
    omega

/-- The tiled total of row-tile sums is the plain double sum from zero. -/
theorem tiledTotal_rows (h : Fin 32 → Fin 1024 → EReal) :
    tiledTotal (fun b tile => ∑ r : Fin 512, h b (rowOf tile r)) = z0 + ∑ b : Fin 32, ∑ n : Fin 1024, h b n := by
  unfold tiledTotal
  exact congrArg (z0 + ·) (Finset.sum_congr rfl fun b _ => sum_tiles (h b))

variable (P T : S2.Idx → EReal) (M : S2.Idx → BitVec 1)

/-- The Huber totals agree. -/
theorem hub_total : tiledTotal (tileHub P T M) = z0 + ∑ i : S2.Idx, hubf (P i) (T i) (maskf M i) := by
  rw [sum_idx2]
  exact tiledTotal_rows fun b n => hubf (P (ix2 b n)) (T (ix2 b n)) (maskf M (ix2 b n))

/-- The mask totals agree. -/
theorem mask_total : tiledTotal (tileMask M) = z0 + ∑ i : S2.Idx, maskf M i := by
  rw [sum_idx2]
  exact tiledTotal_rows fun b n => maskf M (ix2 b n)

/-- The pair totals agree on finite predictions. -/
theorem pair_total (hP : ∀ i, ∃ a : ℝ, P i = (a : EReal)) :
    tiledTotal (tilePair P T M) = z0 + ∑ q : S3.Idx, pairAt P T M q := by
  rw [sum_idx3]
  refine (tiledTotal_rows fun b n => ∑ j : Fin 1024, pairK (P (ix2 b n)) (P (ix2 b j)) (T (ix2 b n)) (T (ix2 b j))
    (maskf M (ix2 b n)) (maskf M (ix2 b j))).trans ?_
  refine congrArg (z0 + ·) (Finset.sum_congr rfl fun b _ => Finset.sum_congr rfl fun n _ => Finset.sum_congr rfl fun j _ => ?_)
  obtain ⟨x, hx⟩ := hP (ix2 b n)
  obtain ⟨y, hy⟩ := hP (ix2 b j)
  show pairK (P (ix2 b n)) (P (ix2 b j)) (T (ix2 b n)) (T (ix2 b j)) (maskf M (ix2 b n)) (maskf M (ix2 b j))
    = pairR (P (ix2 b n)) (P (ix2 b j)) (condR (T (ix2 b n)) (T (ix2 b j)) (M (ix2 b n)) (M (ix2 b j)))
  rw [hx, hy]
  exact pairK_eq x y _ _ _ _

/-- The number of valid pairs, as a natural number. -/
def countNat : ℕ := ∑ q : S3.Idx, ((condAt T M q).setWidth 32).toNat

theorem card_S3 : (Finset.univ : Finset S3.Idx).card = 33554432 := by
  exact card_idx3 (n0 := 32) (n1 := 1024) (n2 := 1024)

theorem countNat_le : countNat T M ≤ 33554432 := by
  unfold countNat
  calc ∑ q : S3.Idx, ((condAt T M q).setWidth 32).toNat ≤ ∑ _q : S3.Idx, 1 :=
        Finset.sum_le_sum fun q _ => Cert.CountLaw.toNat_widen_le _
    _ = 33554432 := by rw [Finset.sum_const, card_S3]; rfl

/-- The 32-bit count does not wrap. -/
theorem countBits_toNat : (countBits T M).toNat = countNat T M :=
  Cert.CountLaw.fold_toNat (Finset.univ : Finset S3.Idx) (fun q => (condAt T M q).setWidth 32)
    (fun q => Cert.CountLaw.toNat_widen_le _) (by rw [card_S3]; norm_num)

/-- The float total of the validity factors is the count. -/
theorem valid_total : tiledTotal (tileValid T M) = ((countNat T M : ℝ) : EReal) := by
  refine (tiledTotal_rows fun b n => ∑ j : Fin 1024, validK (T (ix2 b n)) (T (ix2 b j)) (maskf M (ix2 b n)) (maskf M (ix2 b j))).trans ?_
  rw [z0_eq, zero_add]
  have e : ∀ (b : Fin 32) (n j : Fin 1024), validK (T (ix2 b n)) (T (ix2 b j)) (maskf M (ix2 b n)) (maskf M (ix2 b j))
      = (((((condAt T M (ix3 b n j)).setWidth 32).toNat : ℕ) : ℝ) : EReal) := by
    intro b n j
    refine (validK_eq _ _ _ _).trans ?_
    show (((((condAt T M (ix3 b n j)).setWidth 32).toInt : ℤ) : ℝ) : EReal) = _
    rw [Cert.CountLaw.toInt_widen]
    push_cast
    rfl
  simp only [e]
  rw [← sum_idx3 (fun q : S3.Idx => (((((condAt T M q).setWidth 32).toNat : ℕ) : ℝ) : EReal)), ← Cert.CountLaw.coe_sum]
  unfold countNat
  push_cast
  rfl

/-- The integer count clamped below at one and made a float is the float count clamped below at one. -/
theorem count_clamp : FloatOps.maximumf (F := Ideal) (φ := .f32) (tiledTotal (tileValid T M)) one
    = FloatOps.sitofp (F := Ideal) .f32 (IntOp.maxsi (countBits T M) 1#32) := by
  rw [valid_total, one_eq]
  have hN := countBits_toNat T M
  have hle := countNat_le T M
  have hI : (countBits T M).toInt = (countNat T M : ℤ) := by
    rw [BitVec.toInt_eq_toNat_of_lt (by rw [hN]; omega), hN]
  show max (((countNat T M : ℝ)) : EReal) 1 = (((IntOp.maxsi (countBits T M) 1#32).toInt : ℝ) : EReal)
  unfold IntOp.maxsi
  by_cases h1 : 1 < countNat T M
  · have hs : (1#32 : BitVec 32).slt (countBits T M) = true := by
      rw [BitVec.slt_iff_toInt_lt, hI]
      show (1 : ℤ) < _
      exact_mod_cast h1
    rw [if_pos hs, hI]
    have : (1 : EReal) ≤ ((countNat T M : ℝ) : EReal) := by exact_mod_cast h1.le
    rw [max_eq_left this]
    push_cast
    rfl
  · have hs : ¬(1#32 : BitVec 32).slt (countBits T M) = true := by
      rw [BitVec.slt_iff_toInt_lt, hI]
      show ¬((1 : ℤ) < _)
      exact_mod_cast h1
    rw [if_neg hs]
    have : ((countNat T M : ℝ) : EReal) ≤ 1 := by exact_mod_cast (Nat.not_lt.mp h1)
    rw [max_eq_right this]
    show (1 : EReal) = ((((1#32 : BitVec 32).toInt : ℤ) : ℝ) : EReal)
    have h1i : (1#32 : BitVec 32).toInt = 1 := by decide
    rw [h1i]
    push_cast
    rfl

/-- THE LAW: on finite predictions the tiled arrangement of the loss is the flat one. -/
theorem tiled_eq_flat (hP : ∀ i, ∃ a : ℝ, P i = (a : EReal)) : tiledLoss P T M = flatLoss P T M := by
  unfold tiledLoss flatLoss
  rw [hub_total, mask_total, pair_total P T M hP, count_clamp]

end Cert.RankLoss

end
-- ==== Proof.Finite.lean ====
import proofs.«128812_j19121194402346_2_alg».proof.Pre_finite_inputs
import proofs.«128812_j19121194402346_2_alg».proof.Proof.Gen.Pre_finite_inputs
import proofs.«128812_j19121194402346_2_alg».proof.Proof.Spec
import Idealize.ShloMosaic.Lib.ReduceAll
import Idealize.ShloMosaic.Lib.Affine
import Idealize.ShloMosaic.Lib.Pipeline.Value

/-! # The precondition makes every prediction a real number

The precondition is the conjunction of two `all`-reductions: every `|pred| < +∞` and every `|target| < +∞`. From
the first, each prediction is a real. -/

noncomputable section

namespace Cert.Pre_finite_inputs.Hand

open Idealize.ShloMosaic Cert.Pre_finite_inputs Cert.RankLoss

instance : Subsingleton S_.Idx := ⟨fun a b => funext fun d => d.elim0⟩

theorem pred_real (p t : FVec Ideal S32x1024 .f32) (mk : IVec S32x1024 1)
    (h : fn (F := Ideal) p t mk = fun _ => 1#1) (i : S32x1024.Idx) : ∃ a : ℝ, p i = (a : EReal) := by
  have h0 := congrFun h ValueIdx.ix0
  dsimp only [fn] at h0
  obtain ⟨h1, -⟩ := IntOp.andi_eq_one.1 h0
  have hi := Host.reduce_andi_all _ _ _ _ _ h1 i
  have hb : (broadcastInDim S32x1024 ![] Facts.bcast_S_S32x1024 (constant (F := Ideal) S_ .f32 0x7F800000#32)) i
      = FloatOps.ofBits (F := Ideal) .f32 0x7F800000#32 :=
    broadcastInDim_apply _ _ (constant (F := Ideal) S_ .f32 0x7F800000#32) i ValueIdx.ix0 (fun a => a.elim0)
  refine real_of_abs_lt (p i) ?_
  rw [← hb]
  exact hi

end Cert.Pre_finite_inputs.Hand

end
-- ==== Proof.Claims.lean ====
import proofs.«128812_j19121194402346_2_alg».proof.Defs
import proofs.«128812_j19121194402346_2_alg».proof.Proof.Gen.Kernel.Frame
import proofs.«128812_j19121194402346_2_alg».proof.Proof.Gen.KernelIdeal.Frame
import proofs.«128812_j19121194402346_2_alg».proof.Proof.Gen.ReferenceIdeal.Run
import proofs.«128812_j19121194402346_2_alg».proof.Proof.Gen.ReferenceIdeal.Read
import proofs.«128812_j19121194402346_2_alg».proof.Proof.Gen.Pre_finite_inputs
import proofs.«128812_j19121194402346_2_alg».proof.Proof.KernelRun
import proofs.«128812_j19121194402346_2_alg».proof.Proof.RefValue
import proofs.«128812_j19121194402346_2_alg».proof.Proof.LossLaw
import proofs.«128812_j19121194402346_2_alg».proof.Proof.Finite

/-! # The five claims

The loss of predictions `P`, targets `T` and a mask `M` is the masked Huber mean plus half the pairwise ranking
mean. The kernel program computes it tile by tile (two tiles of 512 entries per batch row, accumulated in four
output blocks across the two grid steps of the row, then summed over the rows on the host); the reference computes
it over all entries and all ordered pairs at once, counting the valid pairs in 32-bit integers. At the exact values
both are one extended real: sums of extended reals may be regrouped freely, the product form and the selection form
of a pair's term agree when the predictions are finite (which the precondition gives), and the integer count of
fewer than `2^31` pairs is the float count. -/

noncomputable section

namespace Cert.Proof.RankClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the loss of the arguments: the kernel program in the tiled arrangement, the
    reference in the flat one, equal on the finite predictions the precondition gives. -/
theorem algebraic : Cert.algebraic_KernelIdeal_ReferenceIdeal := by
  intro m ρ m' ρ' hpre hagree
  refine ⟨fun c => fun _ => Cert.RankLoss.tiledLoss (Cert.KernelIdeal.Arrays.argP m c) (Cert.KernelIdeal.Arrays.argT m c)
    (Cert.KernelIdeal.Arrays.argM m c), Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2]
  funext i
  rw [Cert.ReferenceIdeal.RefValue.result_eq]
  exact (Cert.RankLoss.tiled_eq_flat _ _ _ (Cert.Pre_finite_inputs.Hand.pred_real _ _ _ (hpre c))).symm

end Cert.Proof.RankClaims

end
-- ==== Proof.lean ====
/- The proof of `Cert.Claim`: the three programs run and leave their arguments unchanged, the idealization rewrote
   nothing, and the idealized kernel program and the idealized reference end with the same extended real — the masked
   Huber mean plus half the pairwise ranking mean of the arguments (Proof/Claims.lean says how the two meet). -/
import proofs.«128812_j19121194402346_2_alg».proof.Defs
import proofs.«128812_j19121194402346_2_alg».proof.Proof.Gen.Kernel
import proofs.«128812_j19121194402346_2_alg».proof.Proof.Gen.Kernel.Skeleton
import proofs.«128812_j19121194402346_2_alg».proof.Proof.Gen.Kernel.Launch
import proofs.«128812_j19121194402346_2_alg».proof.Proof.Gen.Kernel.Points
import proofs.«128812_j19121194402346_2_alg».proof.Proof.Gen.Kernel.Frame
import proofs.«128812_j19121194402346_2_alg».proof.Proof.Gen.KernelIdeal
import proofs.«128812_j19121194402346_2_alg».proof.Proof.Gen.KernelIdeal.Skeleton
import proofs.«128812_j19121194402346_2_alg».proof.Proof.Gen.KernelIdeal.Launch
import proofs.«128812_j19121194402346_2_alg».proof.Proof.Gen.KernelIdeal.Points
import proofs.«128812_j19121194402346_2_alg».proof.Proof.Gen.KernelIdeal.Frame
import proofs.«128812_j19121194402346_2_alg».proof.Proof.Gen.ReferenceIdeal
import proofs.«128812_j19121194402346_2_alg».proof.Proof.Gen.Pre_finite_inputs
import proofs.«128812_j19121194402346_2_alg».proof.Proof.Gen.ReferenceIdeal.Run
import proofs.«128812_j19121194402346_2_alg».proof.Proof.Gen.ReferenceIdeal.Read
import proofs.«128812_j19121194402346_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    RankClaims.frame_k, RankClaims.frame_ki, RankClaims.frame_ri, RankClaims.preserves, RankClaims.algebraic⟩

end Cert.Proof

end
